-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S8x128x128 : Shape := ⟨3, ![8, 128, 128]⟩
abbrev S48x8 : Shape := ⟨2, ![48, 8]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S2x1000000 : Shape := ⟨2, ![2, 1000000]⟩
abbrev S1000000 : Shape := ⟨1, ![1000000]⟩
abbrev S32x32 : Shape := ⟨2, ![32, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S48x8 : S_.BroadcastsInDim S48x8 (![] : Fin 0 → Fin S48x8.rank)
  reducesTo_S48x8_S_d0_1 : S48x8.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S64x128 .f32) (main_arg8 : FVec F S128 .f32) (main_arg9 : FVec F S128x256 .f32) (main_arg10 : FVec F S256 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg9
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S128 .f32) (main_arg5 : FVec F S128x64 .f32) (main_arg6 : FVec F S64 .f32) (main_arg7 : FVec F S64x128 .f32) (main_arg8 : FVec F S128 .f32) (main_arg9 : FVec F S128x256 .f32) (main_arg10 : FVec F S256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S8x128x128 .f32) (main_arg2 : FVec F S48x8 .f32) (main_arg3 : FVec F S128x128 .f32) (main_arg4 : FVec F S128 .f32) (main_arg5 : FVec F S128x64 .f32) (main_arg6 : FVec F S64 .f32) (main_arg7 : FVec F S64x128 .f32) (main_arg8 : FVec F S128 .f32) (main_arg9 : FVec F S128x256 .f32) (main_arg10 : FVec F S256 .f32) (main_arg11 : IVec S2x1000000 32) (main_arg12 : IVec S1000000 32) (main_arg13 : IVec S32x32 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S8x128x128 .f32 := Host.absf main_arg1
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S48x8 .f32 := Host.absf main_arg2
  let main_cst_2 : FVec F S_ .f32 := constant S_ .f32 0x7F800000#32
  let main_v10 : FVec F S48x8 .f32 := broadcastInDim S48x8 ![] bcast_S_S48x8 main_cst_2
  let main_v11 : IVec S48x8 1 := cmpf .olt main_v9 main_v10
  let main_c_3 : IVec S_ 1 := constantI S_ 1 1#1
  let main_v12 : IVec S_ 1 := (fun x v => Host.reduce IntOp.andi x v reducesTo_S48x8_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S8x128x128 : Shape := ⟨3, ![8, 128, 128]⟩
abbrev S48x8 : Shape := ⟨2, ![48, 8]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S2x1000000 : Shape := ⟨2, ![2, 1000000]⟩
abbrev S1000000 : Shape := ⟨1, ![1000000]⟩
abbrev S32x32 : Shape := ⟨2, ![32, 32]⟩
abbrev S1x1000000 : Shape := ⟨2, ![1, 1000000]⟩
abbrev S_ : Shape := ⟨0, ![]⟩
abbrev S4800000 : Shape := ⟨1, ![4800000]⟩
abbrev S1000000x1 : Shape := ⟨2, ![1000000, 1]⟩
abbrev S1000000x128 : Shape := ⟨2, ![1000000, 128]⟩
abbrev S1000000x8 : Shape := ⟨2, ![1000000, 8]⟩
abbrev S100000x1024 : Shape := ⟨2, ![100000, 1024]⟩
abbrev S1024x128 : Shape := ⟨2, ![1024, 128]⟩
abbrev S1x128 : Shape := ⟨2, ![1, 128]⟩
abbrev S1x64 : Shape := ⟨2, ![1, 64]⟩
abbrev S1x256 : Shape := ⟨2, ![1, 256]⟩
abbrev S100000x256 : Shape := ⟨2, ![100000, 256]⟩
abbrev S2000x128 : Shape := ⟨2, ![2000, 128]⟩
abbrev S2000x1024 : Shape := ⟨2, ![2000, 1024]⟩
abbrev S2000x256 : Shape := ⟨2, ![2000, 256]⟩
abbrev S2000x64 : Shape := ⟨2, ![2000, 64]⟩
abbrev S32x32x1 : Shape := ⟨3, ![32, 32, 1]⟩
abbrev S32x32x256 : Shape := ⟨3, ![32, 32, 256]⟩

abbrev nBuf : Space → Nat
  | .hbm => 157
  | .vmem => 15
  | .smem => 0
  | _ => 0

abbrev hbmTy0_0 (i : Nat) : BufTy := match i % 128 with
  | 0 => ⟨S100000x128, .f32⟩
  | 1 => ⟨S8x128x128, .f32⟩
  | 2 => ⟨S48x8, .f32⟩
  | 3 => ⟨S128x128, .f32⟩
  | 4 => ⟨S128, .f32⟩
  | 5 => ⟨S128x64, .f32⟩
  | 6 => ⟨S64, .f32⟩
  | 7 => ⟨S64x128, .f32⟩
  | 8 => ⟨S128, .f32⟩
  | 9 => ⟨S128x256, .f32⟩
  | 10 => ⟨S256, .f32⟩
  | 11 => ⟨S2x1000000, .i32⟩
  | 12 => ⟨S1000000, .i32⟩
  | 13 => ⟨S32x32, .i32⟩
  | 14 => ⟨S1x1000000, .i32⟩
  | 15 => ⟨S1000000, .i32⟩
  | 16 => ⟨S1x1000000, .i32⟩
  | 17 => ⟨S1000000, .i32⟩
  | 18 => ⟨S_, .i32⟩
  | 19 => ⟨S1000000, .i32⟩
  | 20 => ⟨S1000000, .i32⟩
  | 21 => ⟨S1000000, .i32⟩
  | 22 => ⟨S_, .f32⟩
  | 23 => ⟨S1000000, .f32⟩
  | 24 => ⟨S_, .f32⟩
  | 25 => ⟨S4800000, .f32⟩
  | 26 => ⟨S1000000x1, .i32⟩
  | 27 => ⟨S4800000, .f32⟩
  | 28 => ⟨S_, .f32⟩
  | 29 => ⟨S4800000, .f32⟩
  | 30 => ⟨S4800000, .f32⟩
  | 31 => ⟨S_, .f32⟩
  | 32 => ⟨S4800000, .f32⟩
  | 33 => ⟨S4800000, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000, .f32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000x128, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x8, .f32⟩
  | 61 => ⟨S1000000x1, .f32⟩
  | 62 => ⟨S1000000, .f32⟩
  | 63 => ⟨S1000000, .f32⟩
  | 64 => ⟨S1000000x1, .f32⟩
  | 65 => ⟨S1000000x128, .f32⟩
  | 66 => ⟨S1000000x128, .f32⟩
  | 67 => ⟨S_, .f32⟩
  | 68 => ⟨S100000x128, .f32⟩
  | 69 => ⟨S1000000x1, .i32⟩
  | 70 => ⟨S100000x128, .f32⟩
  | 71 => ⟨S1000000x1, .f32⟩
  | 72 => ⟨S1000000, .f32⟩
  | 73 => ⟨S1000000, .f32⟩
  | 74 => ⟨S1000000x1, .f32⟩
  | 75 => ⟨S1000000x128, .f32⟩
  | 76 => ⟨S1000000x128, .f32⟩
  | 77 => ⟨S_, .f32⟩
  | 78 => ⟨S100000x128, .f32⟩
  | 79 => ⟨S1000000x1, .i32⟩
  | 80 => ⟨S100000x128, .f32⟩
  | 81 => ⟨S1000000x1, .f32⟩
  | 82 => ⟨S1000000, .f32⟩
  | 83 => ⟨S1000000, .f32⟩
  | 84 => ⟨S1000000x1, .f32⟩
  | 85 => ⟨S1000000x128, .f32⟩
  | 86 => ⟨S1000000x128, .f32⟩
  | 87 => ⟨S_, .f32⟩
  | 88 => ⟨S100000x128, .f32⟩
  | 89 => ⟨S1000000x1, .i32⟩
  | 90 => ⟨S100000x128, .f32⟩
  | 91 => ⟨S1000000x1, .f32⟩
  | 92 => ⟨S1000000, .f32⟩
  | 93 => ⟨S1000000, .f32⟩
  | 94 => ⟨S1000000x1, .f32⟩
  | 95 => ⟨S1000000x128, .f32⟩
  | 96 => ⟨S1000000x128, .f32⟩
  | 97 => ⟨S_, .f32⟩
  | 98 => ⟨S100000x128, .f32⟩
  | 99 => ⟨S1000000x1, .i32⟩
  | 100 => ⟨S100000x128, .f32⟩
  | 101 => ⟨S1000000x1, .f32⟩
  | 102 => ⟨S1000000, .f32⟩
  | 103 => ⟨S1000000, .f32⟩
  | 104 => ⟨S1000000x1, .f32⟩
  | 105 => ⟨S1000000x128, .f32⟩
  | 106 => ⟨S1000000x128, .f32⟩
  | 107 => ⟨S_, .f32⟩
  | 108 => ⟨S100000x128, .f32⟩
  | 109 => ⟨S1000000x1, .i32⟩
  | 110 => ⟨S100000x128, .f32⟩
  | 111 => ⟨S1000000x1, .f32⟩
  | 112 => ⟨S1000000, .f32⟩
  | 113 => ⟨S1000000, .f32⟩
  | 114 => ⟨S1000000x1, .f32⟩
  | 115 => ⟨S1000000x128, .f32⟩
  | 116 => ⟨S1000000x128, .f32⟩
  | 117 => ⟨S_, .f32⟩
  | 118 => ⟨S100000x128, .f32⟩
  | 119 => ⟨S1000000x1, .i32⟩
  | 120 => ⟨S100000x128, .f32⟩
  | 121 => ⟨S1000000x1, .f32⟩
  | 122 => ⟨S1000000, .f32⟩
  | 123 => ⟨S1000000, .f32⟩
  | 124 => ⟨S1000000x1, .f32⟩
  | 125 => ⟨S1000000x128, .f32⟩
  | 126 => ⟨S1000000x128, .f32⟩
  | 127 => ⟨S_, .f32⟩
  | _ => ⟨S100000x128, .f32⟩

abbrev hbmTy0_1 (i : Nat) : BufTy := match i % 128 with
  | 0 => ⟨S100000x128, .f32⟩
  | 1 => ⟨S1000000x1, .i32⟩
  | 2 => ⟨S100000x128, .f32⟩
  | 3 => ⟨S1000000x1, .f32⟩
  | 4 => ⟨S1000000, .f32⟩
  | 5 => ⟨S1000000, .f32⟩
  | 6 => ⟨S1000000x1, .f32⟩
  | 7 => ⟨S1000000x128, .f32⟩
  | 8 => ⟨S1000000x128, .f32⟩
  | 9 => ⟨S_, .f32⟩
  | 10 => ⟨S100000x128, .f32⟩
  | 11 => ⟨S1000000x1, .i32⟩
  | 12 => ⟨S100000x128, .f32⟩
  | 13 => ⟨S100000x1024, .f32⟩
  | 14 => ⟨S1024x128, .f32⟩
  | 15 => ⟨S1x128, .f32⟩
  | 16 => ⟨S1x64, .f32⟩
  | 17 => ⟨S1x128, .f32⟩
  | 18 => ⟨S1x256, .f32⟩
  | 19 => ⟨S100000x256, .f32⟩
  | 20 => ⟨S_, .i32⟩
  | 21 => ⟨S32x32, .i32⟩
  | 22 => ⟨S32x32, .i1⟩
  | 23 => ⟨S_, .i32⟩
  | 24 => ⟨S32x32, .i32⟩
  | 25 => ⟨S32x32, .i32⟩
  | 26 => ⟨S32x32, .i32⟩
  | 27 => ⟨S32x32x1, .i32⟩
  | 28 => ⟨S32x32x256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1024, .f32⟩
  | .local _ .vmem, ⟨3, _⟩ => ⟨S2000x1024, .f32⟩
  | .local _ .vmem, ⟨4, _⟩ => ⟨S1024x128, .f32⟩
  | .local _ .vmem, ⟨5, _⟩ => ⟨S128x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S64x128, .f32⟩
  | .local _ .vmem, ⟨10, _⟩ => ⟨S1x128, .f32⟩
  | .local _ .vmem, ⟨11, _⟩ => ⟨S128x256, .f32⟩
  | .local _ .vmem, ⟨12, _⟩ => ⟨S1x256, .f32⟩
  | .local _ .vmem, ⟨13, _⟩ => ⟨S2000x256, .f32⟩
  | .local _ .vmem, ⟨14, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_c_8 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_13 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_14 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_15 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_16 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_c_17 : Ref sig .tc := ⟨.hbm, 148, rfl⟩
abbrev main_v115 : Ref sig .tc := ⟨.hbm, 149, rfl⟩
abbrev main_v116 : Ref sig .tc := ⟨.hbm, 150, rfl⟩
abbrev main_c_18 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S4800000 : S_.BroadcastsInDim S4800000 (![] : Fin 0 → Fin S4800000.rank)
  bcast_S1000000_S1000000x1_0 : S1000000.BroadcastsInDim S1000000x1 (![0] : Fin 1 → Fin S1000000x1.rank)
  slices_S1000000x8_S1000000x1_0_0 : S1000000x8.Slices ![0, 0] S1000000x1
  shapeCasts_S1000000x1_S1000000 : S1000000x1.ShapeCasts S1000000
  bcast_S1000000x1_S1000000x128_0_1 : S1000000x1.BroadcastsInDim S1000000x128 (![0, 1] : Fin 2 → Fin S1000000x128.rank)
  bcast_S_S100000x128 : S_.BroadcastsInDim S100000x128 (![] : Fin 0 → Fin S100000x128.rank)
  slices_S1000000x8_S1000000x1_0_1 : S1000000x8.Slices ![0, 1] S1000000x1
  slices_S1000000x8_S1000000x1_0_2 : S1000000x8.Slices ![0, 2] S1000000x1
  slices_S1000000x8_S1000000x1_0_3 : S1000000x8.Slices ![0, 3] S1000000x1
  slices_S1000000x8_S1000000x1_0_4 : S1000000x8.Slices ![0, 4] S1000000x1
  slices_S1000000x8_S1000000x1_0_5 : S1000000x8.Slices ![0, 5] S1000000x1
  slices_S1000000x8_S1000000x1_0_6 : S1000000x8.Slices ![0, 6] S1000000x1
  slices_S1000000x8_S1000000x1_0_7 : S1000000x8.Slices ![0, 7] S1000000x1
  concatenates_S100000x128_S100000x128_S100000x128_S100000x128_S100000x128_S100000x128_S100000x128_S100000x128_S100000x1024_d1 : Shape.Concatenates [S100000x128, S100000x128, S100000x128, S100000x128, S100000x128, S100000x128, S100000x128, S100000x128] S100000x1024 1
  shapeCasts_S8x128x128_S1024x128 : S8x128x128.ShapeCasts S1024x128
  shapeCasts_S128_S1x128 : S128.ShapeCasts S1x128
  shapeCasts_S64_S1x64 : S64.ShapeCasts S1x64
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x128_S64x128_0_0 : ∀ a, (![0, 0] : Fin 2 → Nat) a + S64x128.size a ≤ S64x128.size a
  h_S64x128 : 0 < S64x128.numel
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  scatter_S4800000_S1000000x1_S1000000_n_0_0_1_wf : ScatterDims.WF S4800000 S1000000x1 S1000000 [] [0] [0] 1
  gather_S4800000_S1000000x1_S1000000_n_0_n_n_0_1_1_wf : GatherDims.WF S4800000 S1000000x1 S1000000 [] [0] [] [0] [] 1 ![1]
  gather_S100000x128_S1000000x1_S1000000x128_1_0_n_n_0_1_1128_wf : GatherDims.WF S100000x128 S1000000x1 S1000000x128 [1] [0] [] [0] [] 1 ![1, 128]
  gather_S48x8_S1000000x1_S1000000x8_1_0_n_n_0_1_18_wf : GatherDims.WF S48x8 S1000000x1 S1000000x8 [1] [0] [] [0] [] 1 ![1, 8]
  scatter_S100000x128_S1000000x1_S1000000x128_1_0_0_1_wf : ScatterDims.WF S100000x128 S1000000x1 S1000000x128 [1] [0] [0] 1
  dot_S2000x128_S128x128_S2000x128_1_0_0_1_n_n_wf : DotDims.WF S2000x128 S128x128 S2000x128 [1] [0] [0] [1] [] []
  dot_S2000x1024_S1024x128_S2000x128_1_0_0_1_n_n_wf : DotDims.WF S2000x1024 S1024x128 S2000x128 [1] [0] [0] [1] [] []
  dot_S2000x128_S128x64_S2000x64_1_0_0_1_n_n_wf : DotDims.WF S2000x128 S128x64 S2000x64 [1] [0] [0] [1] [] []
  dot_S2000x64_S64x128_S2000x128_1_0_0_1_n_n_wf : DotDims.WF S2000x64 S64x128 S2000x128 [1] [0] [0] [1] [] []
  dot_S2000x128_S128x256_S2000x256_1_0_0_1_n_n_wf : DotDims.WF S2000x128 S128x256 S2000x256 [1] [0] [0] [1] [] []
  gather_S100000x256_S32x32x1_S32x32x256_2_0_n_n_0_2_1256_wf : GatherDims.WF S100000x256 S32x32x1 S32x32x256 [2] [0] [] [0] [] 2 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1024.size a ≤ S100000x1024.size a
  hwx0_1 : ∀ i : grid0.Coords, EltTy.bits .f32 = 32 ∨ (Rect.block (s := S100000x1024) S2000x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .f32 = 32 ∨ (Rect.block (s := S64x128) S64x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x256.size a ≤ S128x256.size a
  hwx0_9 : ∀ i : grid0.Coords, EltTy.bits .f32 = 32 ∨ (Rect.block (s := S128x256) S128x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x256.size a ≤ S100000x256.size a
  hwx0_11 : ∀ i : grid0.Coords, EltTy.bits .f32 = 32 ∨ (Rect.block (s := S100000x256) S2000x256.size (cc0_transform_11 i) (hinb0_11 i)).WholeWords (EltTy.packing .f32)

variable [Facts₀]

def scatter_S4800000_S1000000x1_S1000000_n_0_0_1 : ScatterDims S4800000 S1000000x1 S1000000 where
  updateWindowDims := []
  insertedWindowDims := [0]
  scatterDimsToOperandDims := [0]
  indexVectorDim := 1
  wf := scatter_S4800000_S1000000x1_S1000000_n_0_0_1_wf
def gather_S4800000_S1000000x1_S1000000_n_0_n_n_0_1_1 : GatherDims S4800000 S1000000x1 S1000000 where
  offsetDims := []
  collapsedSliceDims := [0]
  operandBatchingDims := []
  startIndicesBatchingDims := []
  startIndexMap := [0]
  indexVectorDim := 1
  sliceSizes := ![1]
  wf := gather_S4800000_S1000000x1_S1000000_n_0_n_n_0_1_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S48x8_S1000000x1_S1000000x8_1_0_n_n_0_1_18 : GatherDims S48x8 S1000000x1 S1000000x8 where
  offsetDims := [1]
  collapsedSliceDims := [0]
  operandBatchingDims := []
  startIndicesBatchingDims := []
  startIndexMap := [0]
  indexVectorDim := 1
  sliceSizes := ![1, 8]
  wf := gather_S48x8_S1000000x1_S1000000x8_1_0_n_n_0_1_18_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S32x32x1_S32x32x256_2_0_n_n_0_2_1256 : GatherDims S100000x256 S32x32x1 S32x32x256 where
  offsetDims := [2]
  collapsedSliceDims := [0]
  operandBatchingDims := []
  startIndicesBatchingDims := []
  startIndexMap := [0]
  indexVectorDim := 2
  sliceSizes := ![1, 256]
  wf := gather_S100000x256_S32x32x1_S32x32x256_2_0_n_n_0_2_1256_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v108) S2000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v109) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v110) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v111) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v112) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v113) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v114) S2000x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S8x128x128 : Shape := ⟨3, ![8, 128, 128]⟩
abbrev S48x8 : Shape := ⟨2, ![48, 8]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S2x1000000 : Shape := ⟨2, ![2, 1000000]⟩
abbrev S1000000 : Shape := ⟨1, ![1000000]⟩
abbrev S32x32 : Shape := ⟨2, ![32, 32]⟩
abbrev S1x1000000 : Shape := ⟨2, ![1, 1000000]⟩
abbrev S_ : Shape := ⟨0, ![]⟩
abbrev S4800000 : Shape := ⟨1, ![4800000]⟩
abbrev S1000000x1 : Shape := ⟨2, ![1000000, 1]⟩
abbrev S1000000x8 : Shape := ⟨2, ![1000000, 8]⟩
abbrev S1000000x128 : Shape := ⟨2, ![1000000, 128]⟩
abbrev S1x128 : Shape := ⟨2, ![1, 128]⟩
abbrev S1x128x128 : Shape := ⟨3, ![1, 128, 128]⟩
abbrev S100000x64 : Shape := ⟨2, ![100000, 64]⟩
abbrev S1x64 : Shape := ⟨2, ![1, 64]⟩
abbrev S100000x256 : Shape := ⟨2, ![100000, 256]⟩
abbrev S1x256 : Shape := ⟨2, ![1, 256]⟩
abbrev S32x32x1 : Shape := ⟨3, ![32, 32, 1]⟩
abbrev S32x32x256 : Shape := ⟨3, ![32, 32, 256]⟩

abbrev nBuf : Space → Nat
  | .hbm => 182
  | .vmem => 0
  | .smem => 0
  | _ => 0

abbrev hbmTy0_0 (i : Nat) : BufTy := match i % 128 with
  | 0 => ⟨S100000x128, .f32⟩
  | 1 => ⟨S8x128x128, .f32⟩
  | 2 => ⟨S48x8, .f32⟩
  | 3 => ⟨S128x128, .f32⟩
  | 4 => ⟨S128, .f32⟩
  | 5 => ⟨S128x64, .f32⟩
  | 6 => ⟨S64, .f32⟩
  | 7 => ⟨S64x128, .f32⟩
  | 8 => ⟨S128, .f32⟩
  | 9 => ⟨S128x256, .f32⟩
  | 10 => ⟨S256, .f32⟩
  | 11 => ⟨S2x1000000, .i32⟩
  | 12 => ⟨S1000000, .i32⟩
  | 13 => ⟨S32x32, .i32⟩
  | 14 => ⟨S1x1000000, .i32⟩
  | 15 => ⟨S1000000, .i32⟩
  | 16 => ⟨S1x1000000, .i32⟩
  | 17 => ⟨S1000000, .i32⟩
  | 18 => ⟨S_, .i32⟩
  | 19 => ⟨S1000000, .i32⟩
  | 20 => ⟨S1000000, .i32⟩
  | 21 => ⟨S1000000, .i32⟩
  | 22 => ⟨S_, .f32⟩
  | 23 => ⟨S1000000, .f32⟩
  | 24 => ⟨S_, .f32⟩
  | 25 => ⟨S4800000, .f32⟩
  | 26 => ⟨S1000000x1, .i32⟩
  | 27 => ⟨S4800000, .f32⟩
  | 28 => ⟨S_, .f32⟩
  | 29 => ⟨S4800000, .f32⟩
  | 30 => ⟨S4800000, .f32⟩
  | 31 => ⟨S_, .f32⟩
  | 32 => ⟨S4800000, .f32⟩
  | 33 => ⟨S4800000, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x8, .f32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000, .f32⟩
  | 52 => ⟨S1000000x1, .f32⟩
  | 53 => ⟨S1000000x8, .f32⟩
  | 54 => ⟨S1000000x8, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x128, .f32⟩
  | 64 => ⟨S100000x128, .f32⟩
  | 65 => ⟨S1x128, .f32⟩
  | 66 => ⟨S100000x128, .f32⟩
  | 67 => ⟨S100000x128, .f32⟩
  | 68 => ⟨S1000000x1, .f32⟩
  | 69 => ⟨S1000000x128, .f32⟩
  | 70 => ⟨S1000000x128, .f32⟩
  | 71 => ⟨S_, .f32⟩
  | 72 => ⟨S100000x128, .f32⟩
  | 73 => ⟨S1000000x1, .i32⟩
  | 74 => ⟨S100000x128, .f32⟩
  | 75 => ⟨S1x128x128, .f32⟩
  | 76 => ⟨S128x128, .f32⟩
  | 77 => ⟨S100000x128, .f32⟩
  | 78 => ⟨S100000x128, .f32⟩
  | 79 => ⟨S1000000x1, .f32⟩
  | 80 => ⟨S1000000x128, .f32⟩
  | 81 => ⟨S1000000x128, .f32⟩
  | 82 => ⟨S_, .f32⟩
  | 83 => ⟨S100000x128, .f32⟩
  | 84 => ⟨S1000000x1, .i32⟩
  | 85 => ⟨S100000x128, .f32⟩
  | 86 => ⟨S1x128x128, .f32⟩
  | 87 => ⟨S128x128, .f32⟩
  | 88 => ⟨S100000x128, .f32⟩
  | 89 => ⟨S100000x128, .f32⟩
  | 90 => ⟨S1000000x1, .f32⟩
  | 91 => ⟨S1000000x128, .f32⟩
  | 92 => ⟨S1000000x128, .f32⟩
  | 93 => ⟨S_, .f32⟩
  | 94 => ⟨S100000x128, .f32⟩
  | 95 => ⟨S1000000x1, .i32⟩
  | 96 => ⟨S100000x128, .f32⟩
  | 97 => ⟨S1x128x128, .f32⟩
  | 98 => ⟨S128x128, .f32⟩
  | 99 => ⟨S100000x128, .f32⟩
  | 100 => ⟨S100000x128, .f32⟩
  | 101 => ⟨S1000000x1, .f32⟩
  | 102 => ⟨S1000000x128, .f32⟩
  | 103 => ⟨S1000000x128, .f32⟩
  | 104 => ⟨S_, .f32⟩
  | 105 => ⟨S100000x128, .f32⟩
  | 106 => ⟨S1000000x1, .i32⟩
  | 107 => ⟨S100000x128, .f32⟩
  | 108 => ⟨S1x128x128, .f32⟩
  | 109 => ⟨S128x128, .f32⟩
  | 110 => ⟨S100000x128, .f32⟩
  | 111 => ⟨S100000x128, .f32⟩
  | 112 => ⟨S1000000x1, .f32⟩
  | 113 => ⟨S1000000x128, .f32⟩
  | 114 => ⟨S1000000x128, .f32⟩
  | 115 => ⟨S_, .f32⟩
  | 116 => ⟨S100000x128, .f32⟩
  | 117 => ⟨S1000000x1, .i32⟩
  | 118 => ⟨S100000x128, .f32⟩
  | 119 => ⟨S1x128x128, .f32⟩
  | 120 => ⟨S128x128, .f32⟩
  | 121 => ⟨S100000x128, .f32⟩
  | 122 => ⟨S100000x128, .f32⟩
  | 123 => ⟨S1000000x1, .f32⟩
  | 124 => ⟨S1000000x128, .f32⟩
  | 125 => ⟨S1000000x128, .f32⟩
  | 126 => ⟨S_, .f32⟩
  | 127 => ⟨S100000x128, .f32⟩
  | _ => ⟨S100000x128, .f32⟩

abbrev hbmTy0_1 (i : Nat) : BufTy := match i % 128 with
  | 0 => ⟨S1000000x1, .i32⟩
  | 1 => ⟨S100000x128, .f32⟩
  | 2 => ⟨S1x128x128, .f32⟩
  | 3 => ⟨S128x128, .f32⟩
  | 4 => ⟨S100000x128, .f32⟩
  | 5 => ⟨S100000x128, .f32⟩
  | 6 => ⟨S1000000x1, .f32⟩
  | 7 => ⟨S1000000x128, .f32⟩
  | 8 => ⟨S1000000x128, .f32⟩
  | 9 => ⟨S_, .f32⟩
  | 10 => ⟨S100000x128, .f32⟩
  | 11 => ⟨S1000000x1, .i32⟩
  | 12 => ⟨S100000x128, .f32⟩
  | 13 => ⟨S1x128x128, .f32⟩
  | 14 => ⟨S128x128, .f32⟩
  | 15 => ⟨S100000x128, .f32⟩
  | 16 => ⟨S100000x128, .f32⟩
  | 17 => ⟨S1000000x1, .f32⟩
  | 18 => ⟨S1000000x128, .f32⟩
  | 19 => ⟨S1000000x128, .f32⟩
  | 20 => ⟨S_, .f32⟩
  | 21 => ⟨S100000x128, .f32⟩
  | 22 => ⟨S1000000x1, .i32⟩
  | 23 => ⟨S100000x128, .f32⟩
  | 24 => ⟨S1x128x128, .f32⟩
  | 25 => ⟨S128x128, .f32⟩
  | 26 => ⟨S100000x128, .f32⟩
  | 27 => ⟨S100000x128, .f32⟩
  | 28 => ⟨S100000x128, .f32⟩
  | 29 => ⟨S100000x64, .f32⟩
  | 30 => ⟨S1x64, .f32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S100000x128, .f32⟩
  | 37 => ⟨S1x128, .f32⟩
  | 38 => ⟨S100000x128, .f32⟩
  | 39 => ⟨S100000x128, .f32⟩
  | 40 => ⟨S100000x128, .f32⟩
  | 41 => ⟨S100000x256, .f32⟩
  | 42 => ⟨S1x256, .f32⟩
  | 43 => ⟨S100000x256, .f32⟩
  | 44 => ⟨S100000x256, .f32⟩
  | 45 => ⟨S_, .i32⟩
  | 46 => ⟨S32x32, .i32⟩
  | 47 => ⟨S32x32, .i1⟩
  | 48 => ⟨S_, .i32⟩
  | 49 => ⟨S32x32, .i32⟩
  | 50 => ⟨S32x32, .i32⟩
  | 51 => ⟨S32x32, .i32⟩
  | 52 => ⟨S32x32x1, .i32⟩
  | 53 => ⟨S32x32x256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_12 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_13 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_14 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_15 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_16 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_call0_cst : Ref sig .tc := ⟨.hbm, 161, rfl⟩
abbrev main_call0_v0 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_c_17 : Ref sig .tc := ⟨.hbm, 173, rfl⟩
abbrev main_v138 : Ref sig .tc := ⟨.hbm, 174, rfl⟩
abbrev main_v139 : Ref sig .tc := ⟨.hbm, 175, rfl⟩
abbrev main_c_18 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S4800000 : S_.BroadcastsInDim S4800000 (![] : Fin 0 → Fin S4800000.rank)
  bcast_S1000000_S1000000x1_0 : S1000000.BroadcastsInDim S1000000x1 (![0] : Fin 1 → Fin S1000000x1.rank)
  bcast_S1000000x1_S1000000x8_0_1 : S1000000x1.BroadcastsInDim S1000000x8 (![0, 1] : Fin 2 → Fin S1000000x8.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S1000000x8_S1000000x1_0_0 : S1000000x8.Slices ![0, 0] S1000000x1
  bcast_S1000000x1_S1000000x128_0_1 : S1000000x1.BroadcastsInDim S1000000x128 (![0, 1] : Fin 2 → Fin S1000000x128.rank)
  bcast_S_S100000x128 : S_.BroadcastsInDim S100000x128 (![] : Fin 0 → Fin S100000x128.rank)
  slices_S8x128x128_S1x128x128_0_0_0 : S8x128x128.Slices ![0, 0, 0] S1x128x128
  shapeCasts_S1x128x128_S128x128 : S1x128x128.ShapeCasts S128x128
  slices_S1000000x8_S1000000x1_0_1 : S1000000x8.Slices ![0, 1] S1000000x1
  slices_S8x128x128_S1x128x128_1_0_0 : S8x128x128.Slices ![1, 0, 0] S1x128x128
  slices_S1000000x8_S1000000x1_0_2 : S1000000x8.Slices ![0, 2] S1000000x1
  slices_S8x128x128_S1x128x128_2_0_0 : S8x128x128.Slices ![2, 0, 0] S1x128x128
  slices_S1000000x8_S1000000x1_0_3 : S1000000x8.Slices ![0, 3] S1000000x1
  slices_S8x128x128_S1x128x128_3_0_0 : S8x128x128.Slices ![3, 0, 0] S1x128x128
  slices_S1000000x8_S1000000x1_0_4 : S1000000x8.Slices ![0, 4] S1000000x1
  slices_S8x128x128_S1x128x128_4_0_0 : S8x128x128.Slices ![4, 0, 0] S1x128x128
  slices_S1000000x8_S1000000x1_0_5 : S1000000x8.Slices ![0, 5] S1000000x1
  slices_S8x128x128_S1x128x128_5_0_0 : S8x128x128.Slices ![5, 0, 0] S1x128x128
  slices_S1000000x8_S1000000x1_0_6 : S1000000x8.Slices ![0, 6] S1000000x1
  slices_S8x128x128_S1x128x128_6_0_0 : S8x128x128.Slices ![6, 0, 0] S1x128x128
  slices_S1000000x8_S1000000x1_0_7 : S1000000x8.Slices ![0, 7] S1000000x1
  slices_S8x128x128_S1x128x128_7_0_0 : S8x128x128.Slices ![7, 0, 0] S1x128x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  scatter_S4800000_S1000000x1_S1000000_n_0_0_1_wf : ScatterDims.WF S4800000 S1000000x1 S1000000 [] [0] [0] 1
  gather_S48x8_S1000000x1_S1000000x8_1_0_n_n_0_1_18_wf : GatherDims.WF S48x8 S1000000x1 S1000000x8 [1] [0] [] [0] [] 1 ![1, 8]
  gather_S4800000_S1000000x1_S1000000_n_0_n_n_0_1_1_wf : GatherDims.WF S4800000 S1000000x1 S1000000 [] [0] [] [0] [] 1 ![1]
  gather_S100000x128_S1000000x1_S1000000x128_1_0_n_n_0_1_1128_wf : GatherDims.WF S100000x128 S1000000x1 S1000000x128 [1] [0] [] [0] [] 1 ![1, 128]
  dot_S100000x128_S128x128_S100000x128_1_0_0_1_n_n_wf : DotDims.WF S100000x128 S128x128 S100000x128 [1] [0] [0] [1] [] []
  scatter_S100000x128_S1000000x1_S1000000x128_1_0_0_1_wf : ScatterDims.WF S100000x128 S1000000x1 S1000000x128 [1] [0] [0] 1
  dot_S100000x128_S128x64_S100000x64_1_0_0_1_n_n_wf : DotDims.WF S100000x128 S128x64 S100000x64 [1] [0] [0] [1] [] []
  dot_S100000x64_S64x128_S100000x128_1_0_0_1_n_n_wf : DotDims.WF S100000x64 S64x128 S100000x128 [1] [0] [0] [1] [] []
  dot_S100000x128_S128x256_S100000x256_1_0_0_1_n_n_wf : DotDims.WF S100000x128 S128x256 S100000x256 [1] [0] [0] [1] [] []
  gather_S100000x256_S32x32x1_S32x32x256_2_0_n_n_0_2_1256_wf : GatherDims.WF S100000x256 S32x32x1 S32x32x256 [2] [0] [] [0] [] 2 ![1, 256]

variable [Facts₀]

def scatter_S4800000_S1000000x1_S1000000_n_0_0_1 : ScatterDims S4800000 S1000000x1 S1000000 where
  updateWindowDims := []
  insertedWindowDims := [0]
  scatterDimsToOperandDims := [0]
  indexVectorDim := 1
  wf := scatter_S4800000_S1000000x1_S1000000_n_0_0_1_wf
def gather_S48x8_S1000000x1_S1000000x8_1_0_n_n_0_1_18 : GatherDims S48x8 S1000000x1 S1000000x8 where
  offsetDims := [1]
  collapsedSliceDims := [0]
  operandBatchingDims := []
  startIndicesBatchingDims := []
  startIndexMap := [0]
  indexVectorDim := 1
  sliceSizes := ![1, 8]
  wf := gather_S48x8_S1000000x1_S1000000x8_1_0_n_n_0_1_18_wf
def gather_S4800000_S1000000x1_S1000000_n_0_n_n_0_1_1 : GatherDims S4800000 S1000000x1 S1000000 where
  offsetDims := []
  collapsedSliceDims := [0]
  operandBatchingDims := []
  startIndicesBatchingDims := []
  startIndexMap := [0]
  indexVectorDim := 1
  sliceSizes := ![1]
  wf := gather_S4800000_S1000000x1_S1000000_n_0_n_n_0_1_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S32x32x1_S32x32x256_2_0_n_n_0_2_1256 : GatherDims S100000x256 S32x32x1 S32x32x256 where
  offsetDims := [2]
  collapsedSliceDims := [0]
  operandBatchingDims := []
  startIndicesBatchingDims := []
  startIndexMap := [0]
  indexVectorDim := 2
  sliceSizes := ![1, 256]
  wf := gather_S100000x256_S32x32x1_S32x32x256_2_0_n_n_0_2_1256_wf

class Facts : Prop extends Facts₀ where

variable [Facts]
-- ==== Proof.KernelAround.lean ====
/-
  The run of the program around its one launch, and the frame claim read off it.

  The program is a stretch of host operations (two index columns cut from the edge list, a per-(node, relation) degree
  by scatter-add, its reciprocal gathered per edge, the source rows and the relation coefficients gathered per edge,
  eight scaled scatter-adds into per-node aggregates, their concatenation along the feature axis, and reshapes of the
  weights), then one launch over 50 blocks of 2000 node rows, then nine host operations that gather 32 x 32 rows of
  the launch's result.

  At a grid point the body finds each of its eleven input buffers at that point's block of the input's array (the
  two row-blocked inputs move with the point; the nine weight and bias buffers are fetched once and stay), and leaves
  the output buffer at one store of a pure function of those blocks (`outBlock`). With that as the proof data, the
  library's run of a launch surrounded by host operations gives: every execution terminates without fault, every
  input array ends as it was found, the output array ends block by block at what the body stored, and every other
  buffer ends at what the trailing host operations compute from those. No host operation writes an argument array,
  so each argument ends as launched: the frame claim.

  Everything here is generic in the float instance, so the same text serves the word-level program and its
  idealization.
-/
import proofs.«169647_j90151363543101_1_alg».proof.Proof.Gen.Kernel.Launch
import proofs.«169647_j90151363543101_1_alg».proof.Proof.Gen.Kernel.Skeleton
import proofs.«169647_j90151363543101_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- The buffers' contents on core `c` when the launch is entered: the launch memory after the leading host operations. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates. -/
theorem lead_fresh : (hostOps0 : List (HloOp τ sig (Elt F))).Forall fun op => op.fresh = ∅ := by
  simp only [List.Forall]; repeat' constructor
theorem trail_fresh : (hostOps1 : List (HloOp τ sig (Elt F))).Forall fun op => op.fresh = ∅ := by
  simp only [List.Forall]; repeat' constructor

/-- The program is its leading host operations, the launch, and its trailing host operations; so its run reduces to
    the launch continued by the trailing operations, entered at `V`. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact lead_fresh) main_chain

/-- The trailing operations touch only the launch's arrays and buffers that bypass it. -/
theorem trail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem trail_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp trail_fresh) op hop
/-- And each writes only its own result buffer, which is none of the launch's arrays. -/
theorem trail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

/-- The launch finds argument 0 as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 1 as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 2 as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 3 as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 4 as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 5 as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 6 as launched. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 7 as launched. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 8 as launched. -/
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 9 as launched. -/
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 10 as launched. -/
theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 11 as launched. -/
theorem V_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 12 as launched. -/
theorem V_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 13 as launched. -/
theorem V_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Argument 1 is no array of the launch and no trailing operation writes it: it ends as launched. -/
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

/-- Argument 2 is no array of the launch and no trailing operation writes it: it ends as launched. -/
theorem W_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg2 m c

/-- Argument 4 is no array of the launch and no trailing operation writes it: it ends as launched. -/
theorem W_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_arg4 m c

/-- Argument 6 is no array of the launch and no trailing operation writes it: it ends as launched. -/
theorem W_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_arg6 m c

/-- Argument 8 is no array of the launch and no trailing operation writes it: it ends as launched. -/
theorem W_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_arg8 m c

/-- Argument 10 is no array of the launch and no trailing operation writes it: it ends as launched. -/
theorem W_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_arg10 m c

/-- Argument 11 is no array of the launch and no trailing operation writes it: it ends as launched. -/
theorem W_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_arg11 m c

/-- Argument 12 is no array of the launch and no trailing operation writes it: it ends as launched. -/
theorem W_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_arg12 m c

/-- Argument 13 is no array of the launch and no trailing operation writes it: it ends as launched. -/
theorem W_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_arg13 m c

/-! ## The blocks the body finds -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or kept from the point before. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or kept from the point before. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or kept from the point before. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, fetched there or kept from the point before. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, fetched there or kept from the point before. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every point, fetched there or kept from the point before. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current buffer holds its block at every point, fetched there or kept from the point before. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current buffer holds its block at every point, fetched there or kept from the point before. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current buffer holds its block at every point, fetched there or kept from the point before. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current buffer holds its block at every point, fetched there or kept from the point before. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current buffer holds its block at every point, fetched there or kept from the point before. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

/-- The output buffer after the body: its one store, covering the buffer, of the body's arithmetic on the eleven
    input blocks read whole. -/
def outBlock (x0 : Vec F S2000x128 .f32) (x1 : Vec F S2000x1024 .f32) (x2 : Vec F S1024x128 .f32) (x3 : Vec F S128x128 .f32) (x4 : Vec F S1x128 .f32) (x5 : Vec F S128x64 .f32) (x6 : Vec F S1x64 .f32) (x7 : Vec F S64x128 .f32) (x8 : Vec F S1x128 .f32) (x9 : Vec F S128x256 .f32) (x10 : Vec F S1x256 .f32) : Vec F S2000x256 .f32 :=
  View.canon [⟨(Rect.unit (s := S2000x256) ![0, 0] S2000x256.size inb_S2000x256_S2000x256_0_0), k0_pay1 (k0_pay2 (View.ld x0 (Rect.unit (s := S2000x128) ![0, 0] S2000x128.size inb_S2000x128_S2000x128_0_0)) (View.ld x1 (Rect.unit (s := S2000x1024) ![0, 0] S2000x1024.size inb_S2000x1024_S2000x1024_0_0)) (View.ld x3 (Rect.unit (s := S128x128) ![0, 0] S128x128.size inb_S128x128_S128x128_0_0)) (View.ld x2 (Rect.unit (s := S1024x128) ![0, 0] S1024x128.size inb_S1024x128_S1024x128_0_0)) (View.ld x4 (Rect.unit (s := S1x128) ![0, 0] S1x128.size inb_S1x128_S1x128_0_0))) (k0_pay3 (View.ld x0 (Rect.unit (s := S2000x128) ![0, 0] S2000x128.size inb_S2000x128_S2000x128_0_0)) (View.ld x1 (Rect.unit (s := S2000x1024) ![0, 0] S2000x1024.size inb_S2000x1024_S2000x1024_0_0)) (View.ld x3 (Rect.unit (s := S128x128) ![0, 0] S128x128.size inb_S128x128_S128x128_0_0)) (View.ld x2 (Rect.unit (s := S1024x128) ![0, 0] S1024x128.size inb_S1024x128_S1024x128_0_0)) (View.ld x4 (Rect.unit (s := S1x128) ![0, 0] S1x128.size inb_S1x128_S1x128_0_0)) (View.ld x5 (Rect.unit (s := S128x64) ![0, 0] S128x64.size inb_S128x64_S128x64_0_0)) (View.ld x6 (Rect.unit (s := S1x64) ![0, 0] S1x64.size inb_S1x64_S1x64_0_0)) (View.ld x7 (Rect.unit (s := S64x128) ![0, 0] S64x128.size inb_S64x128_S64x128_0_0)) (View.ld x8 (Rect.unit (s := S1x128) ![0, 0] S1x128.size inb_S1x128_S1x128_0_0))) (View.ld x9 (Rect.unit (s := S128x256) ![0, 0] S128x256.size inb_S128x256_S128x256_0_0)) (View.ld x10 (Rect.unit (s := S1x256) ![0, 0] S1x256.size inb_S1x256_S1x256_0_0))⟩]

/-- The one store covers the buffer. -/
theorem outCover (p0 : Vec F S2000x256 .f32) (y : S2000x256.Idx) :
    ∃ pc ∈ ([⟨(Rect.unit (s := S2000x256) ![0, 0] S2000x256.size inb_S2000x256_S2000x256_0_0), p0⟩] : List (View.Piece (Elt F) S2000x256 .f32)), y ∈ pc.1.set :=
  View.cover_of_tiled [⟨(Rect.unit (s := S2000x256) ![0, 0] S2000x256.size inb_S2000x256_S2000x256_0_0), p0⟩] S2000x256.size (by rfl) y

/-! ## The body's triple -/

set_option maxHeartbeats 4000000 in
/-- The body on whole buffers, the inputs' at contents `xW` and the output's at anything, runs to the continuation
    holding the inputs' as they were and the output's at `outBlock` of the inputs'. -/
theorem sound_kernel (c : Dev nD) (E : Set ℕ) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x256 .f32) (harg11 : arg11.IsWhole) (arg12 : Memref sig .tc .vmem S2000x256 .f32) (harg12 : arg12.IsWhole)
    (x0 : Vec F S2000x128 .f32) (x1 : Vec F S2000x1024 .f32) (x2 : Vec F S1024x128 .f32) (x3 : Vec F S128x128 .f32) (x4 : Vec F S1x128 .f32) (x5 : Vec F S128x64 .f32) (x6 : Vec F S1x64 .f32) (x7 : Vec F S64x128 .f32) (x8 : Vec F S1x128 .f32) (x9 : Vec F S128x256 .f32) (x10 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outBlock x0 x1 x2 x3 x4 x5 x6 x7 x8 x9 x10)) -∗ K ⟨⟩))
      ⊢ wp frame (wpE (defs₀ (F := F)) Variants.none c none) E (cc0__rgcn_mlp_kernel i arg1 harg1 arg2 harg2 arg3 harg3 arg4 harg4 arg5 harg5 arg6 harg6 arg7 harg7 arg8 harg8 arg9 harg9 arg10 harg10 arg11 harg11 arg12 harg12) K := by
  simp only [cc0__rgcn_mlp_kernel_eq_skeleton]; unfold cc0__rgcn_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (outCover _)

/-! ## The proof data -/

/-- On core `c`: the arrays as the launch finds them; after the body at point `t` each input's buffer at its block
    and the output's at `outBlock` of the input blocks; the invariant the buffers the body never names; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- The body at any point: the inputs' buffers hold their blocks, so `sound_kernel` applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without fault; at the end every array of the launch is at
    what the proof data computes and every other unscoped buffer at what the trailing operations leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := trail_sub) (hfresh := trail_fresh') (hkeep := trail_keeps)
    (hmain := main_around m Variants.none) (hA := A_eq m) (hΦ := fun _ _ => rfl)

/-- The arguments at the end of such a run are as launched: an argument a window stages is an input array, which the
    launch only reads; any other is written by nothing. -/
theorem args_kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13) :=
  ⟨((h c).1 0).trans (((dats m 0 c).arrAt_in 0 rfl _).trans ((A_eq m c 0).trans (V_arg0 m c))),
   ((h c).2 main_arg1 (Pipeline.mem_restRefs_of main_arg1 (by decide) (by decide))).trans (W_arg1 m (dats m) c),
   ((h c).2 main_arg2 (Pipeline.mem_restRefs_of main_arg2 (by decide) (by decide))).trans (W_arg2 m (dats m) c),
   ((h c).1 3).trans (((dats m 0 c).arrAt_in 3 rfl _).trans ((A_eq m c 3).trans (V_arg3 m c))),
   ((h c).2 main_arg4 (Pipeline.mem_restRefs_of main_arg4 (by decide) (by decide))).trans (W_arg4 m (dats m) c),
   ((h c).1 5).trans (((dats m 0 c).arrAt_in 5 rfl _).trans ((A_eq m c 5).trans (V_arg5 m c))),
   ((h c).2 main_arg6 (Pipeline.mem_restRefs_of main_arg6 (by decide) (by decide))).trans (W_arg6 m (dats m) c),
   ((h c).1 7).trans (((dats m 0 c).arrAt_in 7 rfl _).trans ((A_eq m c 7).trans (V_arg7 m c))),
   ((h c).2 main_arg8 (Pipeline.mem_restRefs_of main_arg8 (by decide) (by decide))).trans (W_arg8 m (dats m) c),
   ((h c).1 9).trans (((dats m 0 c).arrAt_in 9 rfl _).trans ((A_eq m c 9).trans (V_arg9 m c))),
   ((h c).2 main_arg10 (Pipeline.mem_restRefs_of main_arg10 (by decide) (by decide))).trans (W_arg10 m (dats m) c),
   ((h c).2 main_arg11 (Pipeline.mem_restRefs_of main_arg11 (by decide) (by decide))).trans (W_arg11 m (dats m) c),
   ((h c).2 main_arg12 (Pipeline.mem_restRefs_of main_arg12 (by decide) (by decide))).trans (W_arg12 m (dats m) c),
   ((h c).2 main_arg13 (Pipeline.mem_restRefs_of main_arg13 (by decide) (by decide))).trans (W_arg13 m (dats m) c)⟩

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)) :=
  (θ_run defs _ _).mono (fun r h c => args_kept m r h c) (run_main m ρ)

end Cert.Kernel.Around

end
-- ==== Proof.KernelIdealAround.lean ====
/-
  The run of the program around its one launch, and the frame claim read off it.

  The program is a stretch of host operations (two index columns cut from the edge list, a per-(node, relation) degree
  by scatter-add, its reciprocal gathered per edge, the source rows and the relation coefficients gathered per edge,
  eight scaled scatter-adds into per-node aggregates, their concatenation along the feature axis, and reshapes of the
  weights), then one launch over 50 blocks of 2000 node rows, then nine host operations that gather 32 x 32 rows of
  the launch's result.

  At a grid point the body finds each of its eleven input buffers at that point's block of the input's array (the
  two row-blocked inputs move with the point; the nine weight and bias buffers are fetched once and stay), and leaves
  the output buffer at one store of a pure function of those blocks (`outBlock`). With that as the proof data, the
  library's run of a launch surrounded by host operations gives: every execution terminates without fault, every
  input array ends as it was found, the output array ends block by block at what the body stored, and every other
  buffer ends at what the trailing host operations compute from those. No host operation writes an argument array,
  so each argument ends as launched: the frame claim.

  Everything here is generic in the float instance, so the same text serves the word-level program and its
  idealization.
-/
import proofs.«169647_j90151363543101_1_alg».proof.Proof.Gen.KernelIdeal.Launch
import proofs.«169647_j90151363543101_1_alg».proof.Proof.Gen.KernelIdeal.Skeleton
import proofs.«169647_j90151363543101_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- The buffers' contents on core `c` when the launch is entered: the launch memory after the leading host operations. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates. -/
theorem lead_fresh : (hostOps0 : List (HloOp τ sig (Elt F))).Forall fun op => op.fresh = ∅ := by
  simp only [List.Forall]; repeat' constructor
theorem trail_fresh : (hostOps1 : List (HloOp τ sig (Elt F))).Forall fun op => op.fresh = ∅ := by
  simp only [List.Forall]; repeat' constructor

/-- The program is its leading host operations, the launch, and its trailing host operations; so its run reduces to
    the launch continued by the trailing operations, entered at `V`. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact lead_fresh) main_chain

/-- The trailing operations touch only the launch's arrays and buffers that bypass it. -/
theorem trail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem trail_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp trail_fresh) op hop
/-- And each writes only its own result buffer, which is none of the launch's arrays. -/
theorem trail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

/-- The launch finds argument 0 as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 1 as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 2 as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 3 as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 4 as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 5 as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 6 as launched. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 7 as launched. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 8 as launched. -/
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 9 as launched. -/
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 10 as launched. -/
theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 11 as launched. -/
theorem V_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 12 as launched. -/
theorem V_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The launch finds argument 13 as launched. -/
theorem V_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Argument 1 is no array of the launch and no trailing operation writes it: it ends as launched. -/
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

/-- Argument 2 is no array of the launch and no trailing operation writes it: it ends as launched. -/
theorem W_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg2 m c

/-- Argument 4 is no array of the launch and no trailing operation writes it: it ends as launched. -/
theorem W_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_arg4 m c

/-- Argument 6 is no array of the launch and no trailing operation writes it: it ends as launched. -/
theorem W_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_arg6 m c

/-- Argument 8 is no array of the launch and no trailing operation writes it: it ends as launched. -/
theorem W_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_arg8 m c

/-- Argument 10 is no array of the launch and no trailing operation writes it: it ends as launched. -/
theorem W_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_arg10 m c

/-- Argument 11 is no array of the launch and no trailing operation writes it: it ends as launched. -/
theorem W_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_arg11 m c

/-- Argument 12 is no array of the launch and no trailing operation writes it: it ends as launched. -/
theorem W_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_arg12 m c

/-- Argument 13 is no array of the launch and no trailing operation writes it: it ends as launched. -/
theorem W_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_arg13 m c

/-! ## The blocks the body finds -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or kept from the point before. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or kept from the point before. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or kept from the point before. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, fetched there or kept from the point before. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, fetched there or kept from the point before. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every point, fetched there or kept from the point before. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current buffer holds its block at every point, fetched there or kept from the point before. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current buffer holds its block at every point, fetched there or kept from the point before. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current buffer holds its block at every point, fetched there or kept from the point before. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current buffer holds its block at every point, fetched there or kept from the point before. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current buffer holds its block at every point, fetched there or kept from the point before. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

/-- The output buffer after the body: its one store, covering the buffer, of the body's arithmetic on the eleven
    input blocks read whole. -/
def outBlock (x0 : Vec F S2000x128 .f32) (x1 : Vec F S2000x1024 .f32) (x2 : Vec F S1024x128 .f32) (x3 : Vec F S128x128 .f32) (x4 : Vec F S1x128 .f32) (x5 : Vec F S128x64 .f32) (x6 : Vec F S1x64 .f32) (x7 : Vec F S64x128 .f32) (x8 : Vec F S1x128 .f32) (x9 : Vec F S128x256 .f32) (x10 : Vec F S1x256 .f32) : Vec F S2000x256 .f32 :=
  View.canon [⟨(Rect.unit (s := S2000x256) ![0, 0] S2000x256.size inb_S2000x256_S2000x256_0_0), k0_pay1 (k0_pay2 (View.ld x0 (Rect.unit (s := S2000x128) ![0, 0] S2000x128.size inb_S2000x128_S2000x128_0_0)) (View.ld x1 (Rect.unit (s := S2000x1024) ![0, 0] S2000x1024.size inb_S2000x1024_S2000x1024_0_0)) (View.ld x3 (Rect.unit (s := S128x128) ![0, 0] S128x128.size inb_S128x128_S128x128_0_0)) (View.ld x2 (Rect.unit (s := S1024x128) ![0, 0] S1024x128.size inb_S1024x128_S1024x128_0_0)) (View.ld x4 (Rect.unit (s := S1x128) ![0, 0] S1x128.size inb_S1x128_S1x128_0_0))) (k0_pay3 (View.ld x0 (Rect.unit (s := S2000x128) ![0, 0] S2000x128.size inb_S2000x128_S2000x128_0_0)) (View.ld x1 (Rect.unit (s := S2000x1024) ![0, 0] S2000x1024.size inb_S2000x1024_S2000x1024_0_0)) (View.ld x3 (Rect.unit (s := S128x128) ![0, 0] S128x128.size inb_S128x128_S128x128_0_0)) (View.ld x2 (Rect.unit (s := S1024x128) ![0, 0] S1024x128.size inb_S1024x128_S1024x128_0_0)) (View.ld x4 (Rect.unit (s := S1x128) ![0, 0] S1x128.size inb_S1x128_S1x128_0_0)) (View.ld x5 (Rect.unit (s := S128x64) ![0, 0] S128x64.size inb_S128x64_S128x64_0_0)) (View.ld x6 (Rect.unit (s := S1x64) ![0, 0] S1x64.size inb_S1x64_S1x64_0_0)) (View.ld x7 (Rect.unit (s := S64x128) ![0, 0] S64x128.size inb_S64x128_S64x128_0_0)) (View.ld x8 (Rect.unit (s := S1x128) ![0, 0] S1x128.size inb_S1x128_S1x128_0_0))) (View.ld x9 (Rect.unit (s := S128x256) ![0, 0] S128x256.size inb_S128x256_S128x256_0_0)) (View.ld x10 (Rect.unit (s := S1x256) ![0, 0] S1x256.size inb_S1x256_S1x256_0_0))⟩]

/-- The one store covers the buffer. -/
theorem outCover (p0 : Vec F S2000x256 .f32) (y : S2000x256.Idx) :
    ∃ pc ∈ ([⟨(Rect.unit (s := S2000x256) ![0, 0] S2000x256.size inb_S2000x256_S2000x256_0_0), p0⟩] : List (View.Piece (Elt F) S2000x256 .f32)), y ∈ pc.1.set :=
  View.cover_of_tiled [⟨(Rect.unit (s := S2000x256) ![0, 0] S2000x256.size inb_S2000x256_S2000x256_0_0), p0⟩] S2000x256.size (by rfl) y

/-! ## The body's triple -/

set_option maxHeartbeats 4000000 in
/-- The body on whole buffers, the inputs' at contents `xW` and the output's at anything, runs to the continuation
    holding the inputs' as they were and the output's at `outBlock` of the inputs'. -/
theorem sound_kernel (c : Dev nD) (E : Set ℕ) (i : grid0.Coords) (arg1 : Memref sig .tc .vmem S2000x128 .f32) (harg1 : arg1.IsWhole) (arg2 : Memref sig .tc .vmem S2000x1024 .f32) (harg2 : arg2.IsWhole) (arg3 : Memref sig .tc .vmem S1024x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x128 .f32) (harg8 : arg8.IsWhole) (arg9 : Memref sig .tc .vmem S1x128 .f32) (harg9 : arg9.IsWhole) (arg10 : Memref sig .tc .vmem S128x256 .f32) (harg10 : arg10.IsWhole) (arg11 : Memref sig .tc .vmem S1x256 .f32) (harg11 : arg11.IsWhole) (arg12 : Memref sig .tc .vmem S2000x256 .f32) (harg12 : arg12.IsWhole)
    (x0 : Vec F S2000x128 .f32) (x1 : Vec F S2000x1024 .f32) (x2 : Vec F S1024x128 .f32) (x3 : Vec F S128x128 .f32) (x4 : Vec F S1x128 .f32) (x5 : Vec F S128x64 .f32) (x6 : Vec F S1x64 .f32) (x7 : Vec F S64x128 .f32) (x8 : Vec F S1x128 .f32) (x9 : Vec F S128x256 .f32) (x10 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outBlock x0 x1 x2 x3 x4 x5 x6 x7 x8 x9 x10)) -∗ K ⟨⟩))
      ⊢ wp frame (wpE (defs₀ (F := F)) Variants.none c none) E (cc0__rgcn_mlp_kernel i arg1 harg1 arg2 harg2 arg3 harg3 arg4 harg4 arg5 harg5 arg6 harg6 arg7 harg7 arg8 harg8 arg9 harg9 arg10 harg10 arg11 harg11 arg12 harg12) K := by
  simp only [cc0__rgcn_mlp_kernel_eq_skeleton]; unfold cc0__rgcn_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (outCover _)

/-! ## The proof data -/

/-- On core `c`: the arrays as the launch finds them; after the body at point `t` each input's buffer at its block
    and the output's at `outBlock` of the input blocks; the invariant the buffers the body never names; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- The body at any point: the inputs' buffers hold their blocks, so `sound_kernel` applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without fault; at the end every array of the launch is at
    what the proof data computes and every other unscoped buffer at what the trailing operations leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := trail_sub) (hfresh := trail_fresh') (hkeep := trail_keeps)
    (hmain := main_around m Variants.none) (hA := A_eq m) (hΦ := fun _ _ => rfl)

/-- The arguments at the end of such a run are as launched: an argument a window stages is an input array, which the
    launch only reads; any other is written by nothing. -/
theorem args_kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13) :=
  ⟨((h c).1 0).trans (((dats m 0 c).arrAt_in 0 rfl _).trans ((A_eq m c 0).trans (V_arg0 m c))),
   ((h c).2 main_arg1 (Pipeline.mem_restRefs_of main_arg1 (by decide) (by decide))).trans (W_arg1 m (dats m) c),
   ((h c).2 main_arg2 (Pipeline.mem_restRefs_of main_arg2 (by decide) (by decide))).trans (W_arg2 m (dats m) c),
   ((h c).1 3).trans (((dats m 0 c).arrAt_in 3 rfl _).trans ((A_eq m c 3).trans (V_arg3 m c))),
   ((h c).2 main_arg4 (Pipeline.mem_restRefs_of main_arg4 (by decide) (by decide))).trans (W_arg4 m (dats m) c),
   ((h c).1 5).trans (((dats m 0 c).arrAt_in 5 rfl _).trans ((A_eq m c 5).trans (V_arg5 m c))),
   ((h c).2 main_arg6 (Pipeline.mem_restRefs_of main_arg6 (by decide) (by decide))).trans (W_arg6 m (dats m) c),
   ((h c).1 7).trans (((dats m 0 c).arrAt_in 7 rfl _).trans ((A_eq m c 7).trans (V_arg7 m c))),
   ((h c).2 main_arg8 (Pipeline.mem_restRefs_of main_arg8 (by decide) (by decide))).trans (W_arg8 m (dats m) c),
   ((h c).1 9).trans (((dats m 0 c).arrAt_in 9 rfl _).trans ((A_eq m c 9).trans (V_arg9 m c))),
   ((h c).2 main_arg10 (Pipeline.mem_restRefs_of main_arg10 (by decide) (by decide))).trans (W_arg10 m (dats m) c),
   ((h c).2 main_arg11 (Pipeline.mem_restRefs_of main_arg11 (by decide) (by decide))).trans (W_arg11 m (dats m) c),
   ((h c).2 main_arg12 (Pipeline.mem_restRefs_of main_arg12 (by decide) (by decide))).trans (W_arg12 m (dats m) c),
   ((h c).2 main_arg13 (Pipeline.mem_restRefs_of main_arg13 (by decide) (by decide))).trans (W_arg13 m (dats m) c)⟩

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)) :=
  (θ_run defs _ _).mono (fun r h c => args_kept m r h c) (run_main m ρ)

end Cert.KernelIdeal.Around

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.Rows.lean ====
/-
  The dense part of the layer, as one function of arrays of extended reals with any number `M` of rows.

  For node rows `x : M × 128`, aggregated rows `a : M × 1024` (the eight per-basis aggregates side by side) and the
  weights, with `·` the product rows by columns:

    mixed  = ((x · root + bias) + a · bcat) + x                       the relational layer and its residual
    deep h = (max (h · w1 + b1) 0 · w2 + b2) + h                      the two-layer perceptron and its residual
    proj h = h · wp + bp                                              the projection
    dense  = proj (deep mixed)

  Every row of `dense` depends on the same row of `x` and of `a` only (`dense_rows`), so the function applied to a block
  of rows is that block of rows of the function applied to the whole. Nothing here needs the entries to be finite: only
  that equal sums of equal products are equal.
-/
import Idealize.ShloMosaic.Lib.ValueIdx
import Idealize.ShloMosaic.PureOps.Ideal.Laws
import proofs.«169647_j90151363543101_1_alg».proof.Proof.LibPlainProduct

noncomputable section

open scoped BigOperators

namespace Cert.Dense

open Idealize.ShloMosaic Idealize.ShloMosaic.ValueIdx Idealize.ShloMosaic.PlainProduct

variable {M : Nat}

/-- An `a × b` array of extended reals. -/
abbrev Arr (a b : Nat) := FVec Ideal ⟨2, ![a, b]⟩ .f32
/-- A vector of `a` extended reals. -/
abbrev Row (a : Nat) := FVec Ideal ⟨1, ![a]⟩ .f32

/-- The relational layer with its residual: `((x · root + bias) + a · bcat) + x`. -/
def mixed (x : Arr M 128) (a : Arr M 1024) (root : Arr 128 128) (bias : Row 128) (bcat : Arr 1024 128) : Arr M 128 :=
  fun i => ((rowsByCols x root i + bias (ix1 (i 1))) + rowsByCols a bcat i) + x i

/-- The hidden layer of the perceptron: `max (h · w1 + b1) 0`. -/
def hid (h : Arr M 128) (w1 : Arr 128 64) (b1 : Row 64) : Arr M 64 :=
  fun j => max (rowsByCols h w1 j + b1 (ix1 (j 1))) 0

/-- The perceptron with its residual: `(hid h · w2 + b2) + h`. -/
def deep (h : Arr M 128) (w1 : Arr 128 64) (b1 : Row 64) (w2 : Arr 64 128) (b2 : Row 128) : Arr M 128 :=
  fun i => (rowsByCols (hid h w1 b1) w2 i + b2 (ix1 (i 1))) + h i

/-- The projection: `h · wp + bp`. -/
def proj (h : Arr M 128) (wp : Arr 128 256) (bp : Row 256) : Arr M 256 :=
  fun i => rowsByCols h wp i + bp (ix1 (i 1))

/-- The whole dense part. -/
def dense (x : Arr M 128) (a : Arr M 1024) (root : Arr 128 128) (bias : Row 128) (bcat : Arr 1024 128)
    (w1 : Arr 128 64) (b1 : Row 64) (w2 : Arr 64 128) (b2 : Row 128) (wp : Arr 128 256) (bp : Row 256) : Arr M 256 :=
  proj (deep (mixed x a root bias bcat) w1 b1 w2 b2) wp bp

variable {B : Nat}

/-- Rows `e r` of `mixed` are `mixed` of rows `e r` of `x` and `a`. -/
theorem mixed_rows (x : Arr M 128) (a : Arr M 1024) (root : Arr 128 128) (bias : Row 128) (bcat : Arr 1024 128)
    (xb : Arr B 128) (ab : Arr B 1024) (e : Fin B → Fin M)
    (hx : ∀ (r : Fin B) (k : Fin 128), xb (ix2 (n0 := B) (n1 := 128) r k) = x (ix2 (n0 := M) (n1 := 128) (e r) k))
    (ha : ∀ (r : Fin B) (k : Fin 1024), ab (ix2 (n0 := B) (n1 := 1024) r k) = a (ix2 (n0 := M) (n1 := 1024) (e r) k))
    (r : Fin B) (d : Fin 128) :
    mixed xb ab root bias bcat (ix2 (n0 := B) (n1 := 128) r d) = mixed x a root bias bcat (ix2 (n0 := M) (n1 := 128) (e r) d) := by
  unfold mixed
  rw [rowsByCols_rows x root xb e hx, rowsByCols_rows a bcat ab e ha, hx]
  rfl

/-- Rows `e r` of `deep` are `deep` of rows `e r`. -/
theorem deep_rows (h : Arr M 128) (w1 : Arr 128 64) (b1 : Row 64) (w2 : Arr 64 128) (b2 : Row 128)
    (hb : Arr B 128) (e : Fin B → Fin M)
    (hh : ∀ (r : Fin B) (k : Fin 128), hb (ix2 (n0 := B) (n1 := 128) r k) = h (ix2 (n0 := M) (n1 := 128) (e r) k))
    (r : Fin B) (d : Fin 128) :
    deep hb w1 b1 w2 b2 (ix2 (n0 := B) (n1 := 128) r d) = deep h w1 b1 w2 b2 (ix2 (n0 := M) (n1 := 128) (e r) d) := by
  have hhid : ∀ (r : Fin B) (k : Fin 64), hid hb w1 b1 (ix2 (n0 := B) (n1 := 64) r k) = hid h w1 b1 (ix2 (n0 := M) (n1 := 64) (e r) k) := by
    intro r k
    unfold hid
    rw [rowsByCols_rows h w1 hb e hh]
    rfl
  unfold deep
  rw [rowsByCols_rows (hid h w1 b1) w2 (hid hb w1 b1) e hhid, hh]
  rfl

/-- Rows `e r` of `proj` are `proj` of rows `e r`. -/
theorem proj_rows (h : Arr M 128) (wp : Arr 128 256) (bp : Row 256) (hb : Arr B 128) (e : Fin B → Fin M)
    (hh : ∀ (r : Fin B) (k : Fin 128), hb (ix2 (n0 := B) (n1 := 128) r k) = h (ix2 (n0 := M) (n1 := 128) (e r) k))
    (r : Fin B) (j : Fin 256) :
    proj hb wp bp (ix2 (n0 := B) (n1 := 256) r j) = proj h wp bp (ix2 (n0 := M) (n1 := 256) (e r) j) := by
  unfold proj
  rw [rowsByCols_rows h wp hb e hh]
  rfl

/-- Rows `e r` of the dense part are the dense part of rows `e r` of `x` and `a`. -/
theorem dense_rows (x : Arr M 128) (a : Arr M 1024) (root : Arr 128 128) (bias : Row 128) (bcat : Arr 1024 128)
    (w1 : Arr 128 64) (b1 : Row 64) (w2 : Arr 64 128) (b2 : Row 128) (wp : Arr 128 256) (bp : Row 256)
    (xb : Arr B 128) (ab : Arr B 1024) (e : Fin B → Fin M)
    (hx : ∀ (r : Fin B) (k : Fin 128), xb (ix2 (n0 := B) (n1 := 128) r k) = x (ix2 (n0 := M) (n1 := 128) (e r) k))
    (ha : ∀ (r : Fin B) (k : Fin 1024), ab (ix2 (n0 := B) (n1 := 1024) r k) = a (ix2 (n0 := M) (n1 := 1024) (e r) k))
    (r : Fin B) (j : Fin 256) :
    dense xb ab root bias bcat w1 b1 w2 b2 wp bp (ix2 (n0 := B) (n1 := 256) r j)
      = dense x a root bias bcat w1 b1 w2 b2 wp bp (ix2 (n0 := M) (n1 := 256) (e r) j) :=
  proj_rows _ wp bp _ e (deep_rows _ w1 b1 w2 b2 _ e (mixed_rows x a root bias bcat xb ab e hx ha)) r j

end Cert.Dense

end
-- ==== Proof.Block.lean ====
/-
  The body's arithmetic is the dense part, on a block of 2000 rows.

  Read at the exact values the body's three payloads are: the relational layer with its residual (two products into a
  zero accumulator — node rows by the root matrix, aggregated rows by the stacked basis matrices — a bias held as one
  row and repeated down the rows, and the node rows added back); the perceptron (two more products, two more biases, a
  maximum with zero) and its residual; and the projection. A change of float format is the identity on the extended
  reals, a product into the zero accumulator is the product rows by columns, and a bias stored as a 1 × K array and
  repeated down the rows reads at column `c` the bias's entry `c`. So the stored value is `Cert.Dense.dense` of the
  loaded blocks, with the biases' rows read as vectors.
-/
import proofs.«169647_j90151363543101_1_alg».proof.Proof.Gen.KernelIdeal.Skeleton
import proofs.«169647_j90151363543101_1_alg».proof.Proof.Rows
import Idealize.ShloMosaic.Lib.ValueLayout
import Idealize.ShloMosaic.Lib.Pipeline.Value

noncomputable section

namespace Cert.KernelIdeal.Block

open Cert.KernelIdeal Cert.KernelIdeal.Gen
open Idealize.ShloMosaic Idealize.ShloMosaic.ValueIdx Idealize.ShloMosaic.PlainProduct Cert.Dense

/-- A bias array of one row, read as a vector. -/
def rowOf {K : Nat} (v : (⟨2, ![1, K]⟩ : Shape).Idx → EReal) : Row K := fun i => v (ix2 (0 : Fin 1) (i 0))

/-- A bias held as a 1 × K array, cast to its own shape and repeated down `M` rows, reads at `(r, c)` the bias's entry `c`. -/
theorem bias_block {M K : Nat} (v : (⟨2, ![1, K]⟩ : Shape).Idx → EReal) (h1 : (⟨2, ![1, K]⟩ : Shape).ShapeCasts ⟨2, ![1, K]⟩)
    (h2 : (⟨2, ![1, K]⟩ : Shape).Broadcasts ⟨2, ![M, K]⟩) (i : (⟨2, ![M, K]⟩ : Shape).Idx) :
    broadcastTo ⟨2, ![M, K]⟩ (shapeCast ⟨2, ![1, K]⟩ v h1) h2 i = rowOf v (ix1 (i 1)) := by
  obtain ⟨r, c, rfl⟩ : ∃ (r : Fin M) (c : Fin K), i = ix2 r c := ⟨i 0, i 1, eq_ix2 i⟩
  rw [shapeCast_self]
  exact broadcastTo_1b_ab_apply v h2 r c

variable (v0 : Vec Ideal S2000x128 .f32) (v1 : Vec Ideal S2000x1024 .f32) (v5 : Vec Ideal S128x128 .f32)
  (v7 : Vec Ideal S1024x128 .f32) (v11 : Vec Ideal S1x128 .f32) (v19 : Vec Ideal S128x64 .f32) (v22 : Vec Ideal S1x64 .f32)
  (v29 : Vec Ideal S64x128 .f32) (v32 : Vec Ideal S1x128 .f32) (v38 : Vec Ideal S128x256 .f32) (v41 : Vec Ideal S1x256 .f32)

/-- The first payload is the relational layer with its residual. -/
theorem pay2_mixed :
    k0_pay2 (F := Ideal) v0 v1 v5 v7 v11 = mixed v0 v1 v5 (rowOf (K := 128) v11) v7 := by
  funext i
  unfold k0_pay2 mixed
  show ((FloatOps.matmul (F := Ideal) (DotDims.plain 2000 128 128) none _ _ (constant ⟨2, ![2000, 128]⟩ .f32 0x00000000#32) i
      + broadcastTo ⟨2, ![2000, 128]⟩ (shapeCast ⟨2, ![1, 128]⟩ v11 _) _ i)
      + FloatOps.matmul (F := Ideal) (DotDims.plain 2000 1024 128) none _ _ (constant ⟨2, ![2000, 128]⟩ .f32 0x00000000#32) i) + v0 i = _
  rw [matmul_zero_plain, matmul_zero_plain, bias_block, shapeCast_self, shapeCast_self]
  rfl

/-- The second payload is the perceptron of the first, before its residual. -/
theorem pay3_layers :
    k0_pay3 (F := Ideal) v0 v1 v5 v7 v11 v19 v22 v29 v32
      = fun i => rowsByCols (φ₁ := .f32) (φ₂ := .f32) (hid (mixed v0 v1 v5 (rowOf (K := 128) v11) v7) v19 (rowOf (K := 64) v22)) v29 i
          + rowOf (K := 128) v32 (ix1 (i 1)) := by
  have hh : maximumf (addf (matmul dot_S2000x128_S128x64_S2000x64_1_0_0_1_n_n none
        (truncf .bf16 (k0_pay2 (F := Ideal) v0 v1 v5 v7 v11) bitsLt_bf16_f32) (truncf .bf16 v19 bitsLt_bf16_f32)
        (constant S2000x64 .f32 0x00000000#32))
      (broadcastTo S2000x64 (shapeCast S1x64 v22 shapeCasts_S1x64_S1x64) broadcasts_S1x64_S2000x64))
      (broadcast S2000x64 (Scalar.ofBits (F := Ideal) .f32 0x00000000#32))
      = hid (mixed v0 v1 v5 (rowOf (K := 128) v11) v7) v19 (rowOf (K := 64) v22) := by
    funext j
    rw [pay2_mixed v0 v1 v5 v7 v11]
    unfold hid
    show max (FloatOps.matmul (F := Ideal) (DotDims.plain 2000 128 64) none _ _ (constant ⟨2, ![2000, 64]⟩ .f32 0x00000000#32) j
      + broadcastTo ⟨2, ![2000, 64]⟩ (shapeCast ⟨2, ![1, 64]⟩ v22 _) _ j) (Ideal.ofBits .f32 0x00000000#32) = _
    rw [matmul_zero_plain, bias_block, Ideal.ofBits_zero_f32]
    rfl
  funext i
  unfold k0_pay3
  show FloatOps.matmul (F := Ideal) (DotDims.plain 2000 64 128) none (truncf .bf16 _ _) _ (constant ⟨2, ![2000, 128]⟩ .f32 0x00000000#32) i
      + broadcastTo ⟨2, ![2000, 128]⟩ (shapeCast ⟨2, ![1, 128]⟩ v32 _) _ i = _
  rw [hh, matmul_zero_plain, bias_block]
  rfl

/-- The stored value is the dense part of the loaded blocks. -/
theorem body_dense :
    k0_pay1 (F := Ideal) (k0_pay2 v0 v1 v5 v7 v11) (k0_pay3 v0 v1 v5 v7 v11 v19 v22 v29 v32) v38 v41
      = dense v0 v1 v5 (rowOf (K := 128) v11) v7 v19 (rowOf (K := 64) v22) v29 (rowOf (K := 128) v32) v38 (rowOf (K := 256) v41) := by
  rw [pay3_layers v0 v1 v5 v7 v11 v19 v22 v29 v32, pay2_mixed v0 v1 v5 v7 v11]
  funext i
  unfold k0_pay1 dense proj
  show FloatOps.matmul (F := Ideal) (DotDims.plain 2000 128 256) none _ _ (constant ⟨2, ![2000, 256]⟩ .f32 0x00000000#32) i
      + broadcastTo ⟨2, ![2000, 256]⟩ (shapeCast ⟨2, ![1, 256]⟩ v41 _) _ i = _
  rw [matmul_zero_plain, bias_block]
  rfl

end Cert.KernelIdeal.Block

end
-- ==== Proof.Whole.lean ====
/-
  The launch's output array after the run, as one function of the arrays the launch finds.

  Grid point `t` finds rows `2000·t … 2000·t + 1999` of the node rows and of the aggregated rows in its two moving
  buffers and the whole of each weight and bias array in the other nine, and writes back rows `2000·t … 2000·t + 1999`
  of the output. The body stores the dense part of the blocks it loads; the dense part of a block of rows is that
  block of rows of the dense part of the whole; and the 50 blocks tile the 100000 rows. So the output array ends at the
  dense part of the whole arrays.
-/
import proofs.«169647_j90151363543101_1_alg».proof.Proof.KernelIdealAround
import proofs.«169647_j90151363543101_1_alg».proof.Proof.Block
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Around Cert.KernelIdeal.Block
open Idealize.ShloMosaic.ValueIdx Idealize.ShloMosaic.PlainProduct Cert.Dense

variable (m : (ℓ : Loc nD τ sig) → Buf (Elt Ideal) ℓ) (ρ : Dev nD → PrngReg)

theorem hz : (![0, 0] : Fin 2 → Nat) = fun _ => 0 := funext fun a => by fin_cases a <;> rfl

/-- The output array's final contents: the dense part of the arrays as the launch finds them. -/
def result (c : Dev nD) : Arr 100000 256 :=
  dense (V m c main_arg0) (V m c main_v108) (V m c main_arg3) (rowOf (V m c main_v110)) (V m c main_v109)
    (V m c main_arg5) (rowOf (V m c main_v111)) (V m c main_arg7) (rowOf (V m c main_v112))
    (V m c main_arg9) (rowOf (V m c main_v113))

/-- The block indices over the grid: the two row-blocked inputs and the output are at block `t` of their first axis. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
/-- Every other window's block index is zero on both axes: it holds its whole array. -/
theorem idxW2 : ∀ t : Fin cfg0.N, win0_2.index t (0 : Fin 2) = 0 ∧ win0_2.index t (1 : Fin 2) = 0 :=
  (by decide +kernel : ∀ t : Fin grid0.N, _)
theorem idxW3 : ∀ t : Fin cfg0.N, win0_3.index t (0 : Fin 2) = 0 ∧ win0_3.index t (1 : Fin 2) = 0 :=
  (by decide +kernel : ∀ t : Fin grid0.N, _)
theorem idxW4 : ∀ t : Fin cfg0.N, win0_4.index t (0 : Fin 2) = 0 ∧ win0_4.index t (1 : Fin 2) = 0 :=
  (by decide +kernel : ∀ t : Fin grid0.N, _)
theorem idxW5 : ∀ t : Fin cfg0.N, win0_5.index t (0 : Fin 2) = 0 ∧ win0_5.index t (1 : Fin 2) = 0 :=
  (by decide +kernel : ∀ t : Fin grid0.N, _)
theorem idxW6 : ∀ t : Fin cfg0.N, win0_6.index t (0 : Fin 2) = 0 ∧ win0_6.index t (1 : Fin 2) = 0 :=
  (by decide +kernel : ∀ t : Fin grid0.N, _)
theorem idxW7 : ∀ t : Fin cfg0.N, win0_7.index t (0 : Fin 2) = 0 ∧ win0_7.index t (1 : Fin 2) = 0 :=
  (by decide +kernel : ∀ t : Fin grid0.N, _)
theorem idxW8 : ∀ t : Fin cfg0.N, win0_8.index t (0 : Fin 2) = 0 ∧ win0_8.index t (1 : Fin 2) = 0 :=
  (by decide +kernel : ∀ t : Fin grid0.N, _)
theorem idxW9 : ∀ t : Fin cfg0.N, win0_9.index t (0 : Fin 2) = 0 ∧ win0_9.index t (1 : Fin 2) = 0 :=
  (by decide +kernel : ∀ t : Fin grid0.N, _)
theorem idxW10 : ∀ t : Fin cfg0.N, win0_10.index t (0 : Fin 2) = 0 ∧ win0_10.index t (1 : Fin 2) = 0 :=
  (by decide +kernel : ∀ t : Fin grid0.N, _)

theorem t_lt (t : Fin cfg0.N) : t.val < 50 := by
  have h : t.val < cfg0.N := t.isLt
  have e : cfg0.N = 50 := N_0
  omega

/-- Row `2000·t + r` of a 100000-row array. -/
def rowAt (t : Fin cfg0.N) (r : Fin 2000) : Fin 100000 := ⟨t.val * 2000 + r.val, by have := t_lt t; have := r.isLt; omega⟩

/-- The node rows' block at point `t` is rows `2000·t + r` of the array. -/
theorem blk0 (c : Dev nD) (t : Fin cfg0.N) (r : Fin 2000) (k : Fin 128) :
    (iblk m c 0 t : Vec Ideal S2000x128 .f32) (ix2 r k) = (V m c main_arg0 : S100000x128.Idx → EReal) (ix2 (rowAt t r) k) := by
  obtain ⟨e0, e1⟩ := idx0 t
  unfold iblk
  rw [View.read_apply]
  show V m c main_arg0 _ = V m c main_arg0 _
  congr 1
  funext a
  apply Fin.ext
  match a with
  | ⟨0, _⟩ => show win0_0.index t (0 : Fin 2) * 2000 + 1 * r.val = t.val * 2000 + r.val; rw [e0]; omega
  | ⟨1, _⟩ => show win0_0.index t (1 : Fin 2) * 128 + 1 * k.val = k.val; rw [e1]; omega

/-- The aggregated rows' block at point `t` is rows `2000·t + r` of the array. -/
theorem blk1 (c : Dev nD) (t : Fin cfg0.N) (r : Fin 2000) (k : Fin 1024) :
    (iblk m c 1 t : Vec Ideal S2000x1024 .f32) (ix2 r k) = (V m c main_v108 : S100000x1024.Idx → EReal) (ix2 (rowAt t r) k) := by
  obtain ⟨e0, e1⟩ := idx1 t
  unfold iblk
  rw [View.read_apply]
  show V m c main_v108 _ = V m c main_v108 _
  congr 1
  funext a
  apply Fin.ext
  match a with
  | ⟨0, _⟩ => show win0_1.index t (0 : Fin 2) * 2000 + 1 * r.val = t.val * 2000 + r.val; rw [e0]; omega
  | ⟨1, _⟩ => show win0_1.index t (1 : Fin 2) * 1024 + 1 * k.val = k.val; rw [e1]; omega

/-- Window 2 holds its whole array at every point. -/
theorem blk2 (c : Dev nD) (t : Fin cfg0.N) :
    (iblk m c 2 t : Vec Ideal S1024x128 .f32) = (V m c main_v109 : S1024x128.Idx → EReal) := by
  obtain ⟨e0, e1⟩ := idxW2 t
  funext j
  unfold iblk
  rw [View.read_apply]
  show V m c main_v109 _ = V m c main_v109 _
  congr 1
  funext a
  apply Fin.ext
  match a with
  | ⟨0, _⟩ => show win0_2.index t (0 : Fin 2) * 1024 + 1 * (j 0).val = (j 0).val; rw [e0]; omega
  | ⟨1, _⟩ => show win0_2.index t (1 : Fin 2) * 128 + 1 * (j 1).val = (j 1).val; rw [e1]; omega

/-- Window 3 holds its whole array at every point. -/
theorem blk3 (c : Dev nD) (t : Fin cfg0.N) :
    (iblk m c 3 t : Vec Ideal S128x128 .f32) = (V m c main_arg3 : S128x128.Idx → EReal) := by
  obtain ⟨e0, e1⟩ := idxW3 t
  funext j
  unfold iblk
  rw [View.read_apply]
  show V m c main_arg3 _ = V m c main_arg3 _
  congr 1
  funext a
  apply Fin.ext
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

/-- Window 4 holds its whole array at every point. -/
theorem blk4 (c : Dev nD) (t : Fin cfg0.N) :
    (iblk m c 4 t : Vec Ideal S1x128 .f32) = (V m c main_v110 : S1x128.Idx → EReal) := by
  obtain ⟨e0, e1⟩ := idxW4 t
  funext j
  unfold iblk
  rw [View.read_apply]
  show V m c main_v110 _ = V m c main_v110 _
  congr 1
  funext a
  apply Fin.ext
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

/-- Window 5 holds its whole array at every point. -/
theorem blk5 (c : Dev nD) (t : Fin cfg0.N) :
    (iblk m c 5 t : Vec Ideal S128x64 .f32) = (V m c main_arg5 : S128x64.Idx → EReal) := by
  obtain ⟨e0, e1⟩ := idxW5 t
  funext j
  unfold iblk
  rw [View.read_apply]
  show V m c main_arg5 _ = V m c main_arg5 _
  congr 1
  funext a
  apply Fin.ext
  match a with
  | ⟨0, _⟩ => show win0_5.index t (0 : Fin 2) * 128 + 1 * (j 0).val = (j 0).val; rw [e0]; omega
  | ⟨1, _⟩ => show win0_5.index t (1 : Fin 2) * 64 + 1 * (j 1).val = (j 1).val; rw [e1]; omega

/-- Window 6 holds its whole array at every point. -/
theorem blk6 (c : Dev nD) (t : Fin cfg0.N) :
    (iblk m c 6 t : Vec Ideal S1x64 .f32) = (V m c main_v111 : S1x64.Idx → EReal) := by
  obtain ⟨e0, e1⟩ := idxW6 t
  funext j
  unfold iblk
  rw [View.read_apply]
  show V m c main_v111 _ = V m c main_v111 _
  congr 1
  funext a
  apply Fin.ext
  match a with
  | ⟨0, _⟩ => show win0_6.index t (0 : Fin 2) * 1 + 1 * (j 0).val = (j 0).val; rw [e0]; omega
  | ⟨1, _⟩ => show win0_6.index t (1 : Fin 2) * 64 + 1 * (j 1).val = (j 1).val; rw [e1]; omega

/-- Window 7 holds its whole array at every point. -/
theorem blk7 (c : Dev nD) (t : Fin cfg0.N) :
    (iblk m c 7 t : Vec Ideal S64x128 .f32) = (V m c main_arg7 : S64x128.Idx → EReal) := by
  obtain ⟨e0, e1⟩ := idxW7 t
  funext j
  unfold iblk
  rw [View.read_apply]
  show V m c main_arg7 _ = V m c main_arg7 _
  congr 1
  funext a
  apply Fin.ext
  match a with
  | ⟨0, _⟩ => show win0_7.index t (0 : Fin 2) * 64 + 1 * (j 0).val = (j 0).val; rw [e0]; omega
  | ⟨1, _⟩ => show win0_7.index t (1 : Fin 2) * 128 + 1 * (j 1).val = (j 1).val; rw [e1]; omega

/-- Window 8 holds its whole array at every point. -/
theorem blk8 (c : Dev nD) (t : Fin cfg0.N) :
    (iblk m c 8 t : Vec Ideal S1x128 .f32) = (V m c main_v112 : S1x128.Idx → EReal) := by
  obtain ⟨e0, e1⟩ := idxW8 t
  funext j
  unfold iblk
  rw [View.read_apply]
  show V m c main_v112 _ = V m c main_v112 _
  congr 1
  funext a
  apply Fin.ext
  match a with
  | ⟨0, _⟩ => show win0_8.index t (0 : Fin 2) * 1 + 1 * (j 0).val = (j 0).val; rw [e0]; omega
  | ⟨1, _⟩ => show win0_8.index t (1 : Fin 2) * 128 + 1 * (j 1).val = (j 1).val; rw [e1]; omega

/-- Window 9 holds its whole array at every point. -/
theorem blk9 (c : Dev nD) (t : Fin cfg0.N) :
    (iblk m c 9 t : Vec Ideal S128x256 .f32) = (V m c main_arg9 : S128x256.Idx → EReal) := by
  obtain ⟨e0, e1⟩ := idxW9 t
  funext j
  unfold iblk
  rw [View.read_apply]
  show V m c main_arg9 _ = V m c main_arg9 _
  congr 1
  funext a
  apply Fin.ext
  match a with
  | ⟨0, _⟩ => show win0_9.index t (0 : Fin 2) * 128 + 1 * (j 0).val = (j 0).val; rw [e0]; omega
  | ⟨1, _⟩ => show win0_9.index t (1 : Fin 2) * 256 + 1 * (j 1).val = (j 1).val; rw [e1]; omega

/-- Window 10 holds its whole array at every point. -/
theorem blk10 (c : Dev nD) (t : Fin cfg0.N) :
    (iblk m c 10 t : Vec Ideal S1x256 .f32) = (V m c main_v113 : S1x256.Idx → EReal) := by
  obtain ⟨e0, e1⟩ := idxW10 t
  funext j
  unfold iblk
  rw [View.read_apply]
  show V m c main_v113 _ = V m c main_v113 _
  congr 1
  funext a
  apply Fin.ext
  match a with
  | ⟨0, _⟩ => show win0_10.index t (0 : Fin 2) * 1 + 1 * (j 0).val = (j 0).val; rw [e0]; omega
  | ⟨1, _⟩ => show win0_10.index t (1 : Fin 2) * 256 + 1 * (j 1).val = (j 1).val; rw [e1]; omega

/-- WHAT POINT `t` WRITES BACK is rows `2000·t …` of the dense part of the whole arrays. -/
theorem flushed_eq (c : Dev nD) (t : Fin cfg0.N) :
    (dats m 0 c).flushed 11 t = ((cfg0.win 11).blk t).view.read (Elt Ideal) (result m c) := by
  show (cfg0.win 11).cut (grid0.coords t) ((dats m 0 c).after 11 t) = _
  rw [after11]
  unfold outBlock
  rw [View.canon_unit_zero hz]
  simp only [View.ld_unit_zero (S := S2000x128) hz, View.ld_unit_zero (S := S2000x1024) hz, View.ld_unit_zero (S := S1024x128) hz,
    View.ld_unit_zero (S := S128x128) hz, View.ld_unit_zero (S := S1x128) hz, View.ld_unit_zero (S := S128x64) hz,
    View.ld_unit_zero (S := S1x64) hz, View.ld_unit_zero (S := S64x128) hz, View.ld_unit_zero (S := S128x256) hz,
    View.ld_unit_zero (S := S1x256) hz]
  refine (body_dense (iblk m c 0 t) (iblk m c 1 t) (iblk m c 3 t) (iblk m c 2 t) (iblk m c 4 t) (iblk m c 5 t) (iblk m c 6 t)
    (iblk m c 7 t) (iblk m c 8 t) (iblk m c 9 t) (iblk m c 10 t)).trans ?_
  · funext j
    obtain ⟨r, q, rfl⟩ : ∃ (r : Fin 2000) (q : Fin 256), j = ix2 r q := ⟨j 0, j 1, eq_ix2 j⟩
    rw [View.read_apply]
    have hemb : ((cfg0.win 11).blk t).view.emb (ix2 r q) = ix2 (rowAt t r) q := by
      obtain ⟨e0, e1⟩ := idx11 t
      funext a
      apply Fin.ext
      match a with
      | ⟨0, _⟩ => show win0_11.index t (0 : Fin 2) * 2000 + 1 * r.val = t.val * 2000 + r.val; rw [e0]; omega
      | ⟨1, _⟩ => show win0_11.index t (1 : Fin 2) * 256 + 1 * q.val = q.val; rw [e1]; omega
    rw [hemb, blk2, blk3, blk4, blk5, blk6, blk7, blk8, blk9, blk10]
    exact dense_rows (V m c main_arg0) (V m c main_v108) (V m c main_arg3) (rowOf (V m c main_v110)) (V m c main_v109)
      (V m c main_arg5) (rowOf (V m c main_v111)) (V m c main_arg7) (rowOf (V m c main_v112)) (V m c main_arg9) (rowOf (V m c main_v113))
      (iblk m c 0 t) (iblk m c 1 t) (rowAt t) (blk0 m c t) (blk1 m c t) r q

/-- THE OUTPUT ARRAY after the run is the dense part of the whole arrays: every point writes its block back, and row
    `n` lies in the block of point `n / 2000`, so the 50 blocks cover the array. -/
theorem final (c : Dev nD) : (dats m 0 c).arrAt 11 cfg0.N = result m c :=
  (dats m 0 c).arrAt_eq_of_cover 11 (result m c) (fun t _ => flushed_eq m c t) fun i => by
    have h0 : (i 0 : Nat) < 100000 := (i 0).isLt
    have h1 : (i 1 : Nat) < 256 := (i 1).isLt
    have hN : cfg0.N = 50 := N_0
    obtain ⟨t, ht⟩ : ∃ t : Fin cfg0.N, t.val = (i 0 : Nat) / 2000 := ⟨⟨(i 0 : Nat) / 2000, by omega⟩, rfl⟩
    refine ⟨t, flush0_11 t, ?_⟩
    obtain ⟨e0, e1⟩ := idx11 t
    show i ∈ ((View.whole main_v114).slice (win0_11.rect t)).set
    rw [View.set_slice_whole, Rect.mem_set_unit]
    intro a
    match a with
    | ⟨0, _⟩ =>
      show win0_11.index t (0 : Fin 2) * 2000 ≤ (i 0 : Nat) ∧ (i 0 : Nat) < win0_11.index t (0 : Fin 2) * 2000 + 2000
      rw [e0, ht]
      omega
    | ⟨1, _⟩ =>
      show win0_11.index t (1 : Fin 2) * 256 ≤ (i 1 : Nat) ∧ (i 1 : Nat) < win0_11.index t (1 : Fin 2) * 256 + 256
      rw [e1]
      omega

end Cert.KernelIdeal.Whole

end
-- ==== Proof.Result.lean ====
/-
  What the kernel program computes.

  After the launch the program picks 32 × 32 rows of the launch's output at the entity ids (an id below zero is read
  from the end, as the printed `select` says). The launch's output is the dense part of the arrays the launch finds
  (`Whole.final`); the trailing operations read it and the ids, which nothing has written. So every execution ends with
  the result array at `pick` of the dense part, and the arguments as launched.
-/
import proofs.«169647_j90151363543101_1_alg».proof.Proof.Whole
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Around

variable (m : (ℓ : Loc nD τ sig) → Buf (Elt Ideal) ℓ) (ρ : Dev nD → PrngReg)

/-- The rows of `ent` at the entity ids. -/
def pick (ent : FVec Ideal S100000x256 .f32) (x13 : (⟨S32x32, .i32⟩ : BufTy).Contents (Elt Ideal)) : FVec Ideal S32x32x256 .f32 :=
  Host.gather gather_S100000x256_S32x32x1_S32x32x256_2_0_n_n_0_2_1256 ent
    (broadcastInDim S32x32x1 ![0, 1] bcast_S32x32_S32x32x1_0_1
      (select (cmpi .slt x13 (broadcastInDim S32x32 ![] bcast_S_S32x32 (constantI S_ 32 0#32)))
        (addi x13 (broadcastInDim S32x32 ![] bcast_S_S32x32 (constantI S_ 32 100000#32))) x13))

set_option maxHeartbeats 4000000 in
/-- The trailing operations leave `pick` of the launch's output array at the ids as launched. -/
theorem tail_eq (c : Dev nD) : Pipeline.afterTail₀ cfgs (dats m) 0 (V0 m) [hostOps1] c main_v121
    = pick ((dats m 0 c).arrAt 11 cfg0.N) (m ((c.tc : Thread nD τ).loc main_arg13)) := by
  unfold Pipeline.afterTail₀
  show StableHlo.after hostOps1 _ (Proc.devRef .tc main_v121) = _
  after_results
  have hA : Pipeline.withArrays (cfgs 0).spec c (V0 m c) (fun w => (dats m 0 c).arrAt w (cfgs 0).N) (Proc.devRef .tc main_v114)
      = (dats m 0 c).arrAt 11 cfg0.N :=
    Pipeline.withArrays_arr spec0 launch0.win.arr_inj c (V0 m c) _ 11
  have hI : Pipeline.withArrays (cfgs 0).spec c (V0 m c) (fun w => (dats m 0 c).arrAt w (cfgs 0).N) (Proc.devRef .tc main_arg13)
      = m ((c.tc : Thread nD τ).loc main_arg13) :=
    (Pipeline.withArrays_of_ne spec0 c (V0 m c) _ main_arg13 (by decide)).trans (V_arg13 m c)
  rw [hA, hI]
  rfl

/-- THE KERNEL PROGRAM'S RUN: it terminates without fault with the result array at `pick` of the dense part of the
    arrays the launch finds, and the arguments as launched. -/
theorem run : θ_run defs (onTc (τ := τ) (main (F := Ideal))) ⟨m, fun _ => 0, ρ⟩ (fun r => ∀ c : Dev nD,
      r.2.mem ((c.tc : Thread nD τ).loc main_v121) = pick (Cert.KernelIdeal.Whole.result m c) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨((h c).2 main_v121 (Pipeline.mem_restRefs_of main_v121 (by decide) (by decide))).trans
        ((tail_eq m c).trans (by rw [Cert.KernelIdeal.Whole.final])),
      args_kept m r h c⟩) (run_main m ρ)

end Cert.KernelIdeal.Result

end
-- ==== Proof.EntryDefs.lean ====
/-
  What the leading host operations leave in the arrays the launch reads that are not arguments.

  From the edge list the program cuts the source and the destination column; the segment of an edge is
  `48 · destination + relation`; the degree of a segment is a scatter-add of ones, and its weight the reciprocal of
  `max degree 1`; each edge gathers its segment's weight, its source's row of node features and its relation's row of
  eight coefficients. For basis `k` an edge's update row is `(coefficient k · weight) · source row`, and the aggregate
  of basis `k` is the scatter-add of the update rows at the destinations into zero. The launch reads the eight
  aggregates side by side (`aggCat`), the eight basis matrices stacked (a reshape), and each bias as one row (a reshape).
  Gathers read an index below zero from the end, as the printed `select` says.
-/
import proofs.«169647_j90151363543101_1_alg».proof.Proof.KernelIdealAround
import Idealize.ShloMosaic.Lib.StableHlo.Run
import Idealize.ShloMosaic.PureOps.Ideal

set_option maxRecDepth 16384

noncomputable section

open Idealize.ShloMosaic Idealize.ShloMosaic.TcCoe Idealize.SL.Sem

namespace Cert.KernelIdeal.Entry

open Cert.KernelIdeal Cert.KernelIdeal.Gen Cert.KernelIdeal.Around

/-- The destination column of the edge list. -/
def dst (x11 : (⟨S2x1000000, .i32⟩ : BufTy).Contents (Elt Ideal)) : (⟨S1000000, .i32⟩ : BufTy).Contents (Elt Ideal) :=
  shapeCast _ (extractStridedSlice S1x1000000 ![1, 0] x11 slices_S2x1000000_S1x1000000_1_0) shapeCasts_S1x1000000_S1000000
/-- The source column of the edge list. -/
def src (x11 : (⟨S2x1000000, .i32⟩ : BufTy).Contents (Elt Ideal)) : (⟨S1000000, .i32⟩ : BufTy).Contents (Elt Ideal) :=
  shapeCast _ (extractStridedSlice S1x1000000 ![0, 0] x11 slices_S2x1000000_S1x1000000_0_0) shapeCasts_S1x1000000_S1000000
/-- An edge's segment: `48 · destination + relation`. -/
def seg (x11 : (⟨S2x1000000, .i32⟩ : BufTy).Contents (Elt Ideal)) (x12 : (⟨S1000000, .i32⟩ : BufTy).Contents (Elt Ideal)) : (⟨S1000000, .i32⟩ : BufTy).Contents (Elt Ideal) :=
  addi (muli (dst x11) (broadcastInDim S1000000 ![] bcast_S_S1000000 (constantI S_ 32 48#32))) x12
/-- A segment's weight: the reciprocal of `max degree 1`, the degree a scatter-add of ones. -/
def weight (x11 : (⟨S2x1000000, .i32⟩ : BufTy).Contents (Elt Ideal)) (x12 : (⟨S1000000, .i32⟩ : BufTy).Contents (Elt Ideal)) : FVec Ideal S4800000 .f32 :=
  Host.divf (broadcastInDim S4800000 ![] bcast_S_S4800000 (constant S_ .f32 0x3F800000#32))
    (maximumf (Host.scatterAdd scatter_S4800000_S1000000x1_S1000000_n_0_0_1
        (broadcastInDim S4800000 ![] bcast_S_S4800000 (constant S_ .f32 0x00000000#32))
        (broadcastInDim S1000000x1 ![0] bcast_S1000000_S1000000x1_0 (seg x11 x12))
        (broadcastInDim S1000000 ![] bcast_S_S1000000 (constant S_ .f32 0x3F800000#32)))
      (broadcastInDim S4800000 ![] bcast_S_S4800000 (constant S_ .f32 0x3F800000#32)))
/-- Each edge's segment weight. -/
def edgeWeight (x11 : (⟨S2x1000000, .i32⟩ : BufTy).Contents (Elt Ideal)) (x12 : (⟨S1000000, .i32⟩ : BufTy).Contents (Elt Ideal)) : FVec Ideal S1000000 .f32 :=
  Host.gather gather_S4800000_S1000000x1_S1000000_n_0_n_n_0_1_1 (weight x11 x12)
    (broadcastInDim S1000000x1 ![0] bcast_S1000000_S1000000x1_0
      (select (cmpi .slt (seg x11 x12) (broadcastInDim S1000000 ![] bcast_S_S1000000 (constantI S_ 32 0#32)))
        (addi (seg x11 x12) (broadcastInDim S1000000 ![] bcast_S_S1000000 (constantI S_ 32 4800000#32))) (seg x11 x12)))
/-- Each edge's source row of node features. -/
def srcRows (x0 : FVec Ideal S100000x128 .f32) (x11 : (⟨S2x1000000, .i32⟩ : BufTy).Contents (Elt Ideal)) : FVec Ideal S1000000x128 .f32 :=
  Host.gather gather_S100000x128_S1000000x1_S1000000x128_1_0_n_n_0_1_1128 x0
    (broadcastInDim S1000000x1 ![0] bcast_S1000000_S1000000x1_0
      (select (cmpi .slt (src x11) (broadcastInDim S1000000 ![] bcast_S_S1000000 (constantI S_ 32 0#32)))
        (addi (src x11) (broadcastInDim S1000000 ![] bcast_S_S1000000 (constantI S_ 32 100000#32))) (src x11)))
/-- Each edge's relation's row of eight coefficients. -/
def coefRows (x2 : FVec Ideal S48x8 .f32) (x12 : (⟨S1000000, .i32⟩ : BufTy).Contents (Elt Ideal)) : FVec Ideal S1000000x8 .f32 :=
  Host.gather gather_S48x8_S1000000x1_S1000000x8_1_0_n_n_0_1_18 x2
    (broadcastInDim S1000000x1 ![0] bcast_S1000000_S1000000x1_0
      (select (cmpi .slt x12 (broadcastInDim S1000000 ![] bcast_S_S1000000 (constantI S_ 32 0#32)))
        (addi x12 (broadcastInDim S1000000 ![] bcast_S_S1000000 (constantI S_ 32 48#32))) x12))

/-- The update rows of the basis whose coefficient column is cut at offset `k`: `(coefficient · weight) · source row`. -/
def updRows (k : Nat) (hk : S1000000x8.Slices ![0, k] S1000000x1) (coef : FVec Ideal S1000000x8 .f32) (w : FVec Ideal S1000000 .f32)
    (rows : FVec Ideal S1000000x128 .f32) : FVec Ideal S1000000x128 .f32 :=
  mulf (broadcastInDim S1000000x128 ![0, 1] bcast_S1000000x1_S1000000x128_0_1
      (broadcastInDim S1000000x1 ![0] bcast_S1000000_S1000000x1_0
        (mulf (shapeCast _ (extractStridedSlice S1000000x1 ![0, k] coef hk) shapeCasts_S1000000x1_S1000000) w))) rows

/-- An aggregate: the scatter-add of update rows at the destinations `d` into zero. -/
def aggOf (d : (⟨S1000000, .i32⟩ : BufTy).Contents (Elt Ideal)) (upd : FVec Ideal S1000000x128 .f32) : FVec Ideal S100000x128 .f32 :=
  Host.scatterAdd scatter_S100000x128_S1000000x1_S1000000x128_1_0_0_1
    (broadcastInDim S100000x128 ![] bcast_S_S100000x128 (constant S_ .f32 0x00000000#32))
    (broadcastInDim S1000000x1 ![0] bcast_S1000000_S1000000x1_0 d) upd

/-- The eight aggregates side by side, from the destinations, the coefficient rows, the weights and the source rows. -/
def catOf (d : (⟨S1000000, .i32⟩ : BufTy).Contents (Elt Ideal)) (coef : FVec Ideal S1000000x8 .f32) (w : FVec Ideal S1000000 .f32)
    (rows : FVec Ideal S1000000x128 .f32) : FVec Ideal S100000x1024 .f32 :=
  concatenate S100000x1024 1 [⟨S100000x128, aggOf d (updRows 0 slices_S1000000x8_S1000000x1_0_0 coef w rows)⟩, ⟨S100000x128, aggOf d (updRows 1 slices_S1000000x8_S1000000x1_0_1 coef w rows)⟩, ⟨S100000x128, aggOf d (updRows 2 slices_S1000000x8_S1000000x1_0_2 coef w rows)⟩, ⟨S100000x128, aggOf d (updRows 3 slices_S1000000x8_S1000000x1_0_3 coef w rows)⟩, ⟨S100000x128, aggOf d (updRows 4 slices_S1000000x8_S1000000x1_0_4 coef w rows)⟩, ⟨S100000x128, aggOf d (updRows 5 slices_S1000000x8_S1000000x1_0_5 coef w rows)⟩, ⟨S100000x128, aggOf d (updRows 6 slices_S1000000x8_S1000000x1_0_6 coef w rows)⟩, ⟨S100000x128, aggOf d (updRows 7 slices_S1000000x8_S1000000x1_0_7 coef w rows)⟩]
    concatenates_S100000x128_S100000x128_S100000x128_S100000x128_S100000x128_S100000x128_S100000x128_S100000x128_S100000x1024_d1

variable (x0 : FVec Ideal S100000x128 .f32) (x2 : FVec Ideal S48x8 .f32) (x11 : (⟨S2x1000000, .i32⟩ : BufTy).Contents (Elt Ideal)) (x12 : (⟨S1000000, .i32⟩ : BufTy).Contents (Elt Ideal))

/-- The aggregate of basis `k`. -/
def agg0 : FVec Ideal S100000x128 .f32 :=
  aggOf (dst x11) (updRows 0 slices_S1000000x8_S1000000x1_0_0 (coefRows x2 x12) (edgeWeight x11 x12) (srcRows x0 x11))
def agg1 : FVec Ideal S100000x128 .f32 :=
  aggOf (dst x11) (updRows 1 slices_S1000000x8_S1000000x1_0_1 (coefRows x2 x12) (edgeWeight x11 x12) (srcRows x0 x11))
def agg2 : FVec Ideal S100000x128 .f32 :=
  aggOf (dst x11) (updRows 2 slices_S1000000x8_S1000000x1_0_2 (coefRows x2 x12) (edgeWeight x11 x12) (srcRows x0 x11))
def agg3 : FVec Ideal S100000x128 .f32 :=
  aggOf (dst x11) (updRows 3 slices_S1000000x8_S1000000x1_0_3 (coefRows x2 x12) (edgeWeight x11 x12) (srcRows x0 x11))
def agg4 : FVec Ideal S100000x128 .f32 :=
  aggOf (dst x11) (updRows 4 slices_S1000000x8_S1000000x1_0_4 (coefRows x2 x12) (edgeWeight x11 x12) (srcRows x0 x11))
def agg5 : FVec Ideal S100000x128 .f32 :=
  aggOf (dst x11) (updRows 5 slices_S1000000x8_S1000000x1_0_5 (coefRows x2 x12) (edgeWeight x11 x12) (srcRows x0 x11))
def agg6 : FVec Ideal S100000x128 .f32 :=
  aggOf (dst x11) (updRows 6 slices_S1000000x8_S1000000x1_0_6 (coefRows x2 x12) (edgeWeight x11 x12) (srcRows x0 x11))
def agg7 : FVec Ideal S100000x128 .f32 :=
  aggOf (dst x11) (updRows 7 slices_S1000000x8_S1000000x1_0_7 (coefRows x2 x12) (edgeWeight x11 x12) (srcRows x0 x11))

/-- The eight aggregates side by side. -/
def aggCat : FVec Ideal S100000x1024 .f32 :=
  catOf (dst x11) (coefRows x2 x12) (edgeWeight x11 x12) (srcRows x0 x11)

end Cert.KernelIdeal.Entry

end
-- ==== Proof.LibPerceptron.lean ====
/-
  A perceptron with one hidden layer, applied to every row of an array of extended reals.

  For an `M × D` array `x`, weights `W1 : D × H` and `W2 : H × N`, and biases `b1 : H` and `b2 : N`,

    hidden x W1 b1 (r, j)        = max (∑ k, x (r, k) · W1 (k, j) + b1 j) 0
    layers x W1 b1 W2 b2 (r, c)  = ∑ j, hidden x W1 b1 (r, j) · W2 (j, c) + b2 c.

  * `layers_rows`: row `r` of the result depends on row `r` of `x` only, so the perceptron of a block of rows of `x` is
    that block of rows of the perceptron of `x`.
  * `unit_form`: the sequence of operations a matrix unit runs on a block — a product into the zero accumulator, the bias
    laid out as one row and repeated down the rows, the maximum with zero, a change of float format (the identity on
    the extended reals), a second product into zero and a second bias — is `layers`.
  * `host_form`: the same perceptron written with general dot products and biases broadcast along the rows is `layers`.

  The two forms are the same sums of the same products in the same grouping; no law of arithmetic beyond `0 + a = a` is
  used, and nothing needs the entries to be finite.
-/
import Idealize.ShloMosaic.Lib.ValueIdx
import Idealize.ShloMosaic.Lib.ValueLayout
import Idealize.ShloMosaic.Lib.Pipeline.Value
import Idealize.ShloMosaic.PureOps.Ideal.Laws
import proofs.«169647_j90151363543101_1_alg».proof.Proof.LibPlainProduct

noncomputable section

open scoped BigOperators

namespace Cert.Perceptron

open Idealize.ShloMosaic Idealize.ShloMosaic.ValueIdx Idealize.ShloMosaic.PlainProduct

variable {φx φ1 φ2 : FTy} {M D H N : Nat}

/-- The hidden layer: `max (x · W1 + b1) 0`, the bias added to every row. -/
def hidden (x : FVec Ideal ⟨2, ![M, D]⟩ φx) (W1 : FVec Ideal ⟨2, ![D, H]⟩ φ1) (b1 : FVec Ideal ⟨1, ![H]⟩ .f32) :
    FVec Ideal ⟨2, ![M, H]⟩ .f32 :=
  fun i => max (rowsByCols x W1 i + b1 (ix1 (i 1))) 0

/-- The perceptron: `hidden · W2 + b2`. -/
def layers (x : FVec Ideal ⟨2, ![M, D]⟩ φx) (W1 : FVec Ideal ⟨2, ![D, H]⟩ φ1) (b1 : FVec Ideal ⟨1, ![H]⟩ .f32)
    (W2 : FVec Ideal ⟨2, ![H, N]⟩ φ2) (b2 : FVec Ideal ⟨1, ![N]⟩ .f32) : FVec Ideal ⟨2, ![M, N]⟩ .f32 :=
  fun j => rowsByCols (hidden x W1 b1) W2 j + b2 (ix1 (j 1))

/-- Rows `e r` of the hidden layer are the hidden layer of rows `e r` of the input. -/
theorem hidden_rows {B : Nat} (x : FVec Ideal ⟨2, ![M, D]⟩ φx) (W1 : FVec Ideal ⟨2, ![D, H]⟩ φ1) (b1 : FVec Ideal ⟨1, ![H]⟩ .f32)
    (xb : FVec Ideal ⟨2, ![B, D]⟩ φx) (e : Fin B → Fin M)
    (hxb : ∀ (r : Fin B) (k : Fin D), xb (ix2 (n0 := B) (n1 := D) r k) = x (ix2 (n0 := M) (n1 := D) (e r) k))
    (r : Fin B) (j : Fin H) :
    hidden xb W1 b1 (ix2 (n0 := B) (n1 := H) r j) = hidden x W1 b1 (ix2 (n0 := M) (n1 := H) (e r) j) :=
  congrArg (fun a => max (a + b1 (ix1 j)) 0) (rowsByCols_rows x W1 xb e hxb (ix2 (n0 := B) (n1 := H) r j))

/-- Rows `e r` of the perceptron are the perceptron of rows `e r` of the input: if `xb (r, k) = x (e r, k)` then
    `layers xb … (r, c) = layers x … (e r, c)`. -/
theorem layers_rows {B : Nat} (x : FVec Ideal ⟨2, ![M, D]⟩ φx) (W1 : FVec Ideal ⟨2, ![D, H]⟩ φ1) (b1 : FVec Ideal ⟨1, ![H]⟩ .f32)
    (W2 : FVec Ideal ⟨2, ![H, N]⟩ φ2) (b2 : FVec Ideal ⟨1, ![N]⟩ .f32)
    (xb : FVec Ideal ⟨2, ![B, D]⟩ φx) (e : Fin B → Fin M)
    (hxb : ∀ (r : Fin B) (k : Fin D), xb (ix2 (n0 := B) (n1 := D) r k) = x (ix2 (n0 := M) (n1 := D) (e r) k))
    (j : (⟨2, ![B, N]⟩ : Shape).Idx) :
    layers xb W1 b1 W2 b2 j = layers x W1 b1 W2 b2 (ix2 (n0 := M) (n1 := N) (e (j 0)) (j 1)) :=
  congrArg (fun a => a + b2 (ix1 (j 1)))
    (rowsByCols_rows (hidden x W1 b1) W2 (hidden xb W1 b1) e (hidden_rows x W1 b1 xb e hxb) j)

/-- A bias laid out as one row and repeated down `M` rows reads, at `(r, c)`, the bias at `c`. -/
theorem bias_rows {K : Nat} (b : FVec Ideal ⟨1, ![K]⟩ .f32) (h1 : (⟨1, ![K]⟩ : Shape).ShapeCasts ⟨2, ![1, K]⟩)
    (h2 : (⟨2, ![1, K]⟩ : Shape).Broadcasts ⟨2, ![M, K]⟩) (i : (⟨2, ![M, K]⟩ : Shape).Idx) :
    broadcastTo ⟨2, ![M, K]⟩ (shapeCast ⟨2, ![1, K]⟩ b h1) h2 i = b (ix1 (i 1)) := by
  obtain ⟨r, c, rfl⟩ : ∃ (r : Fin M) (c : Fin K), i = ix2 r c := ⟨i 0, i 1, eq_ix2 i⟩
  exact (broadcastTo_1b_ab_apply _ h2 r c).trans (shapeCast_a_1a_apply b h1 0 c)

/-- The hidden layer as a matrix unit computes it. -/
theorem unit_hidden (x : FVec Ideal ⟨2, ![M, D]⟩ φx) (W1 : FVec Ideal ⟨2, ![D, H]⟩ φ1) (b1 : FVec Ideal ⟨1, ![H]⟩ .f32)
    (h1 : (⟨1, ![H]⟩ : Shape).ShapeCasts ⟨2, ![1, H]⟩) (h2 : (⟨2, ![1, H]⟩ : Shape).Broadcasts ⟨2, ![M, H]⟩) :
    maximumf (addf (matmul (DotDims.plain M D H) none x W1 (constant ⟨2, ![M, H]⟩ .f32 0x00000000#32))
        (broadcastTo ⟨2, ![M, H]⟩ (shapeCast ⟨2, ![1, H]⟩ b1 h1) h2))
      (broadcast ⟨2, ![M, H]⟩ (Scalar.ofBits (F := Ideal) .f32 0x00000000#32))
    = hidden x W1 b1 := by
  funext i
  show max (FloatOps.matmul (DotDims.plain M D H) none x W1 (constant ⟨2, ![M, H]⟩ .f32 0x00000000#32) i
      + broadcastTo ⟨2, ![M, H]⟩ (shapeCast ⟨2, ![1, H]⟩ b1 h1) h2 i) (Ideal.ofBits .f32 0x00000000#32) = _
  rw [matmul_zero_plain, bias_rows, Ideal.ofBits_zero_f32]
  rfl

/-- THE MATRIX UNIT'S FORM: two products into the zero accumulator, each followed by its bias laid out as one row and
    repeated down the rows, with the maximum with zero and a change of float format between them. -/
theorem unit_form {ψ : FTy} (x : FVec Ideal ⟨2, ![M, D]⟩ φx) (W1 : FVec Ideal ⟨2, ![D, H]⟩ φ1) (b1 : FVec Ideal ⟨1, ![H]⟩ .f32)
    (W2 : FVec Ideal ⟨2, ![H, N]⟩ φ2) (b2 : FVec Ideal ⟨1, ![N]⟩ .f32)
    (h1 : (⟨1, ![H]⟩ : Shape).ShapeCasts ⟨2, ![1, H]⟩) (h2 : (⟨2, ![1, H]⟩ : Shape).Broadcasts ⟨2, ![M, H]⟩)
    (h3 : (⟨1, ![N]⟩ : Shape).ShapeCasts ⟨2, ![1, N]⟩) (h4 : (⟨2, ![1, N]⟩ : Shape).Broadcasts ⟨2, ![M, N]⟩)
    (hψ : ψ.bits < FTy.f32.bits) :
    addf (matmul (DotDims.plain M H N) none
          (truncf ψ (maximumf (addf (matmul (DotDims.plain M D H) none x W1 (constant ⟨2, ![M, H]⟩ .f32 0x00000000#32))
              (broadcastTo ⟨2, ![M, H]⟩ (shapeCast ⟨2, ![1, H]⟩ b1 h1) h2))
            (broadcast ⟨2, ![M, H]⟩ (Scalar.ofBits (F := Ideal) .f32 0x00000000#32))) hψ)
          W2 (constant ⟨2, ![M, N]⟩ .f32 0x00000000#32))
      (broadcastTo ⟨2, ![M, N]⟩ (shapeCast ⟨2, ![1, N]⟩ b2 h3) h4)
    = layers x W1 b1 W2 b2 := by
  rw [unit_hidden]
  funext j
  show FloatOps.matmul (DotDims.plain M H N) none (truncf ψ (hidden x W1 b1) hψ) W2 (constant ⟨2, ![M, N]⟩ .f32 0x00000000#32) j
      + broadcastTo ⟨2, ![M, N]⟩ (shapeCast ⟨2, ![1, N]⟩ b2 h3) h4 j = _
  rw [matmul_zero_plain, bias_rows]
  rfl

/-- A bias broadcast first to one row and then along `M` rows reads, at `(r, c)`, the bias at `c`. -/
theorem bias_inDim {K : Nat} (b : FVec Ideal ⟨1, ![K]⟩ .f32)
    (h1 : (⟨1, ![K]⟩ : Shape).BroadcastsInDim ⟨2, ![1, K]⟩ (![1] : Fin 1 → Fin 2))
    (h2 : (⟨2, ![1, K]⟩ : Shape).BroadcastsInDim ⟨2, ![M, K]⟩ (![0, 1] : Fin 2 → Fin 2)) (i : (⟨2, ![M, K]⟩ : Shape).Idx) :
    broadcastInDim ⟨2, ![M, K]⟩ ![0, 1] h2 (broadcastInDim ⟨2, ![1, K]⟩ ![1] h1 b) i = b (ix1 (i 1)) := by
  refine (broadcastInDim_apply _ h2 _ i (ix2 (0 : Fin 1) (i 1)) fun a => ?_).trans
    (broadcastInDim_apply _ h1 b _ (ix1 (i 1)) fun a => ?_)
  · match a with
    | ⟨0, _⟩ => show 0 = if (1 : Nat) = 1 then 0 else (i 0).val; rw [if_pos rfl]
    | ⟨1, _⟩ =>
      show (i 1).val = if K = 1 then 0 else (i 1).val
      split
      · have := idx2_lt1 i; omega
      · rfl
  · match a with
    | ⟨0, _⟩ =>
      show (i 1).val = if K = 1 then 0 else (i 1).val
      split
      · have := idx2_lt1 i; omega
      · rfl

/-- THE HOST'S FORM: two general dot products, each followed by its bias broadcast along the rows, with the maximum with a
    zero array between them. -/
theorem host_form (x : FVec Ideal ⟨2, ![M, D]⟩ φx) (W1 : FVec Ideal ⟨2, ![D, H]⟩ φ1) (b1 : FVec Ideal ⟨1, ![H]⟩ .f32)
    (W2 : FVec Ideal ⟨2, ![H, N]⟩ φ2) (b2 : FVec Ideal ⟨1, ![N]⟩ .f32)
    (h1 : (⟨1, ![H]⟩ : Shape).BroadcastsInDim ⟨2, ![1, H]⟩ (![1] : Fin 1 → Fin 2))
    (h2 : (⟨2, ![1, H]⟩ : Shape).BroadcastsInDim ⟨2, ![M, H]⟩ (![0, 1] : Fin 2 → Fin 2))
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2))
    (h0 : (⟨0, ![]⟩ : Shape).BroadcastsInDim ⟨2, ![M, H]⟩ (![] : Fin 0 → Fin 2)) :
    addf (Host.dotGeneral (DotDims.plain M H N) none
          (maximumf (addf (Host.dotGeneral (DotDims.plain M D H) none x W1)
              (broadcastInDim ⟨2, ![M, H]⟩ ![0, 1] h2 (broadcastInDim ⟨2, ![1, H]⟩ ![1] h1 b1)))
            (broadcastInDim ⟨2, ![M, H]⟩ ![] h0 (constant (F := Ideal) ⟨0, ![]⟩ .f32 0x00000000#32)))
          W2)
      (broadcastInDim ⟨2, ![M, N]⟩ ![0, 1] h4 (broadcastInDim ⟨2, ![1, N]⟩ ![1] h3 b2))
    = layers x W1 b1 W2 b2 := by
  have hh : maximumf (addf (Host.dotGeneral (DotDims.plain M D H) none x W1)
              (broadcastInDim ⟨2, ![M, H]⟩ ![0, 1] h2 (broadcastInDim ⟨2, ![1, H]⟩ ![1] h1 b1)))
            (broadcastInDim ⟨2, ![M, H]⟩ ![] h0 (constant (F := Ideal) ⟨0, ![]⟩ .f32 0x00000000#32))
          = hidden x W1 b1 := by
    funext i
    show max (FloatOps.dotGeneral (DotDims.plain M D H) none .single x W1 i
        + broadcastInDim ⟨2, ![M, H]⟩ ![0, 1] h2 (broadcastInDim ⟨2, ![1, H]⟩ ![1] h1 b1) i)
        (Ideal.ofBits .f32 0x00000000#32) = _
    rw [dotGeneral_plain, bias_inDim, Ideal.ofBits_zero_f32]
    rfl
  rw [hh]
  funext j
  show FloatOps.dotGeneral (DotDims.plain M H N) none .single (hidden x W1 b1) W2 j
      + broadcastInDim ⟨2, ![M, N]⟩ ![0, 1] h4 (broadcastInDim ⟨2, ![1, N]⟩ ![1] h3 b2) j = _
  rw [dotGeneral_plain, bias_inDim]
  rfl

end Cert.Perceptron

end
-- ==== Proof.LibTileLaw.lean ====
/-
  The one law of arithmetic that joins the two programs.

  One program contracts the eight aggregates side by side against the eight basis matrices stacked — a single sum over
  1024 = 8 · 128 positions — and adds it to the root transform at once; the other contracts each aggregate against its
  own basis matrix — eight sums over 128 positions — and adds them one after the other. On the extended reals addition
  is commutative and associative (an infinite term does not break either), so a sum over `J · L` positions is the sum
  over `J` tiles of the sums over the `L` positions of each tile, and adding eight terms one by one is adding their sum.
  No term needs to be finite.
-/
import Mathlib.Data.EReal.Basic
import Mathlib.Algebra.BigOperators.Fin
import Mathlib.Logic.Equiv.Fin.Basic

open scoped BigOperators

namespace Cert.TileLaw

/-- A sum over `J · L` positions, tile by tile: position `L · k + d` is position `d` of tile `k`. -/
theorem sum_tiles {J L : Nat} (f : Fin (J * L) → EReal) :
    ∑ c : Fin (J * L), f c = ∑ k : Fin J, ∑ d : Fin L, f (finProdFinEquiv (k, d)) := by
  rw [← Fintype.sum_prod_type (f := fun p : Fin J × Fin L => f (finProdFinEquiv p))]
  exact (Fintype.sum_equiv finProdFinEquiv _ _ (fun _ => rfl)).symm

/-- The position of entry `d` of tile `k`. -/
theorem tile_val {J L : Nat} (k : Fin J) (d : Fin L) : (finProdFinEquiv (k, d) : Fin (J * L)).val = d.val + L * k.val := rfl

/-- Eight terms added one after the other onto `s` are `s` plus their sum. -/
theorem add_eight (s : EReal) (p : Fin 8 → EReal) :
    (((((((s + p 0) + p 1) + p 2) + p 3) + p 4) + p 5) + p 6) + p 7 = s + ∑ k : Fin 8, p k := by
  rw [Fin.sum_univ_eight]
  simp only [add_assoc]

end Cert.TileLaw
-- ==== Proof.Stacked.lean ====
/-
  Eight matrices stacked, eight arrays side by side, and the contraction of the one against the other.

  For `x : 8 × 128 × 128`, the stacked matrix (a reshape to `1024 × 128`) has at row `128·k + d` row `d` of matrix
  `k`, and matrix `k` cut out and flattened is the same rows. Eight `N × 128` arrays joined along the features have,
  at feature `128·k + d`, feature `d` of array `k`. So contracting the joined array against the stacked matrix — one
  sum over 1024 positions — is the sum over `k` of array `k` contracted against matrix `k`: the same products, grouped
  tile by tile.
-/
import Idealize.ShloMosaic.Lib.ValueIdx
import Idealize.ShloMosaic.Lib.Pipeline.Value
import proofs.«169647_j90151363543101_1_alg».proof.Proof.LibPlainProduct
import proofs.«169647_j90151363543101_1_alg».proof.Proof.LibTileLaw

noncomputable section

open scoped BigOperators

namespace Cert.Stacked

open Idealize.ShloMosaic Idealize.ShloMosaic.ValueIdx Idealize.ShloMosaic.PlainProduct

/-- Matrix `k` cut out of the eight and flattened reads, at `(d, j)`, the entry `(k, d, j)`. -/
theorem basisAt (x : FVec Ideal ⟨3, ![8, 128, 128]⟩ .f32) (k : Nat) (hk : k < 8)
    (hs : (⟨3, ![8, 128, 128]⟩ : Shape).Slices ![k, 0, 0] ⟨3, ![1, 128, 128]⟩)
    (hc : (⟨3, ![1, 128, 128]⟩ : Shape).ShapeCasts ⟨2, ![128, 128]⟩) (d j : Fin 128) :
    shapeCast ⟨2, ![128, 128]⟩ (extractStridedSlice ⟨3, ![1, 128, 128]⟩ ![k, 0, 0] x hs) hc (ix2 d j) = x (ix3 ⟨k, hk⟩ d j) :=
  (shapeCast_apply _ hc (ix2 d j) (ix3 (0 : Fin 1) d j) (by
      rw [Shape.rowMajor_val_three, Shape.rowMajor_val_two]
      show (0 * 128 + d.val) * 128 + j.val = d.val * 128 + j.val
      omega)).trans
    (extractStridedSlice_apply _ x hs _ _ fun a => match a with
      | ⟨0, _⟩ => by show k = k + 0; omega
      | ⟨1, _⟩ => by show d.val = 0 + d.val; omega
      | ⟨2, _⟩ => by show j.val = 0 + j.val; omega)

/-- The eight matrices stacked read, at row `128·k + d` and column `j`, the entry `(k, d, j)`. -/
theorem stackedAt (x : FVec Ideal ⟨3, ![8, 128, 128]⟩ .f32) (hc : (⟨3, ![8, 128, 128]⟩ : Shape).ShapeCasts ⟨2, ![1024, 128]⟩)
    (k : Fin 8) (d j : Fin 128) (c : Fin 1024) (hcv : c.val = d.val + 128 * k.val) :
    shapeCast ⟨2, ![1024, 128]⟩ x hc (ix2 c j) = x (ix3 k d j) :=
  shapeCast_apply x hc _ _ (by
    rw [Shape.rowMajor_val_three, Shape.rowMajor_val_two]
    show (k.val * 128 + d.val) * 128 + j.val = c.val * 128 + j.val
    omega)

variable {N : Nat}

/-- Eight arrays joined along the features read, at feature `128·k + d`, feature `d` of array `k`. -/
theorem joinedAt (p : Fin 8 → FVec Ideal ⟨2, ![N, 128]⟩ .f32)
    (h : Shape.Concatenates ((List.ofFn fun n : Fin 8 => (⟨⟨2, ![N, 128]⟩, p n⟩ : (s : Shape) × (s.Idx → EReal))).map (·.1)) ⟨2, ![N, 1024]⟩ 1)
    (n : Fin N) (k : Fin 8) (d : Fin 128) (c : Fin 1024) (hcv : c.val = d.val + 128 * k.val) :
    concatenate ⟨2, ![N, 1024]⟩ 1 (List.ofFn fun n : Fin 8 => (⟨⟨2, ![N, 128]⟩, p n⟩ : (s : Shape) × (s.Idx → EReal))) h (ix2 n c)
      = p k (ix2 n d) :=
  concatenate_ofFn_apply (t := ⟨2, ![N, 1024]⟩) (s₁ := ⟨2, ![N, 128]⟩) (1 : Fin 2) p h rfl 128 rfl (ix2 n c) k (by show c.val / 128 = k.val; omega) (ix2 n d)
    (by show d.val = c.val % 128; omega) (fun b hb => match b with
      | ⟨0, _⟩ => rfl
      | ⟨1, _⟩ => absurd rfl hb)

/-- The contraction over 1024 positions is the sum of the eight contractions over 128. -/
theorem contract_tiles (piece : Fin 8 → FVec Ideal ⟨2, ![N, 128]⟩ .f32) (basis : Fin 8 → FVec Ideal ⟨2, ![128, 128]⟩ .f32)
    (cat : FVec Ideal ⟨2, ![N, 1024]⟩ .f32) (bcat : FVec Ideal ⟨2, ![1024, 128]⟩ .f32)
    (hcat : ∀ (n : Fin N) (k : Fin 8) (d : Fin 128) (c : Fin 1024), c.val = d.val + 128 * k.val → cat (ix2 n c) = piece k (ix2 n d))
    (hb : ∀ (k : Fin 8) (d j : Fin 128) (c : Fin 1024), c.val = d.val + 128 * k.val → bcat (ix2 c j) = basis k (ix2 d j))
    (i : (⟨2, ![N, 128]⟩ : Shape).Idx) :
    rowsByCols cat bcat i = ∑ k : Fin 8, rowsByCols (piece k) (basis k) i := by
  unfold rowsByCols
  refine (Cert.TileLaw.sum_tiles (J := 8) (L := 128) fun c => cat (ix2 (i 0) c) * bcat (ix2 c (i 1))).trans ?_
  refine Finset.sum_congr rfl fun k _ => Finset.sum_congr rfl fun d _ => ?_
  rw [hcat (i 0) k d _ (Cert.TileLaw.tile_val k d), hb k d (i 1) _ (Cert.TileLaw.tile_val k d)]

end Cert.Stacked

end
-- ==== Proof.RefSide.lean ====
/-
  The reference program's dense part, read as the functions of `Cert.Dense`.

  Above the hidden state the reference is the perceptron with its residual and the projection, written with general
  dot products and biases repeated along the rows: `proj (deep h)` (`top_eq`). The hidden state itself is the root
  transform plus bias, then the eight per-basis products added one after the other, then the node rows: with the eight
  aggregates joined side by side and the eight basis matrices stacked this is `mixed` (`mixed_eq`) — adding eight terms
  in turn is adding their sum, and the sum of the eight contractions over 128 positions is the one contraction over
  1024.
-/
import proofs.«169647_j90151363543101_1_alg».proof.Proof.Gen.ReferenceIdeal.Read
import proofs.«169647_j90151363543101_1_alg».proof.Proof.Rows
import proofs.«169647_j90151363543101_1_alg».proof.Proof.LibPerceptron
import proofs.«169647_j90151363543101_1_alg».proof.Proof.Stacked

noncomputable section

open scoped BigOperators

namespace Cert.ReferenceIdeal.Side

open Cert.ReferenceIdeal Cert.ReferenceIdeal.Gen Cert.ReferenceIdeal.Read
open Idealize.ShloMosaic Idealize.ShloMosaic.ValueIdx Idealize.ShloMosaic.PlainProduct Cert.Dense

variable (x0 : (⟨S100000x128, .f32⟩ : BufTy).Contents (Elt Ideal)) (x1 : (⟨S8x128x128, .f32⟩ : BufTy).Contents (Elt Ideal))
  (x2 : (⟨S48x8, .f32⟩ : BufTy).Contents (Elt Ideal)) (x3 : (⟨S128x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal)) (x7 : (⟨S64x128, .f32⟩ : BufTy).Contents (Elt Ideal))
  (x8 : (⟨S128, .f32⟩ : BufTy).Contents (Elt Ideal)) (x9 : (⟨S128x256, .f32⟩ : BufTy).Contents (Elt Ideal))
  (x10 : (⟨S256, .f32⟩ : BufTy).Contents (Elt Ideal)) (x11 : (⟨S2x1000000, .i32⟩ : BufTy).Contents (Elt Ideal))
  (x12 : (⟨S1000000, .i32⟩ : BufTy).Contents (Elt Ideal))

/-- The reference's hidden layer is `hid` of its hidden state. -/
theorem hidden_eq : val_main_v128 (F := Ideal) x0 x1 x2 x3 x4 x5 x6 x11 x12 = hid (val_main_v123 x0 x1 x2 x3 x4 x11 x12) x5 x6 := by
  funext j
  unfold val_main_v128 val_main_v127 val_main_v126 val_main_v125 val_main_v124 val_main_call0_v0 val_main_call0_cst hid
  show max (FloatOps.dotGeneral (F := Ideal) (DotDims.plain 100000 128 64) none .single _ _ j
      + broadcastInDim ⟨2, ![100000, 64]⟩ ![0, 1] _ (broadcastInDim ⟨2, ![1, 64]⟩ ![1] _ x6) j) (Ideal.ofBits .f32 0x00000000#32) = _
  rw [dotGeneral_plain, Cert.Perceptron.bias_inDim, Ideal.ofBits_zero_f32]

/-- Its perceptron with the residual is `deep`. -/
theorem deep_eq : val_main_v133 (F := Ideal) x0 x1 x2 x3 x4 x5 x6 x7 x8 x11 x12 = deep (val_main_v123 x0 x1 x2 x3 x4 x11 x12) x5 x6 x7 x8 := by
  funext i
  unfold val_main_v133 val_main_v132 val_main_v131 val_main_v130 val_main_v129 deep
  rw [hidden_eq]
  show (FloatOps.dotGeneral (F := Ideal) (DotDims.plain 100000 64 128) none .single _ _ i
      + broadcastInDim ⟨2, ![100000, 128]⟩ ![0, 1] _ (broadcastInDim ⟨2, ![1, 128]⟩ ![1] _ x8) i) + _ = _
  rw [dotGeneral_plain, Cert.Perceptron.bias_inDim]

/-- Above the hidden state the reference is the perceptron with its residual, then the projection. -/
theorem top_eq : val_main_v137 (F := Ideal) x0 x1 x2 x3 x4 x5 x6 x7 x8 x9 x10 x11 x12
    = proj (deep (val_main_v123 x0 x1 x2 x3 x4 x11 x12) x5 x6 x7 x8) x9 x10 := by
  funext i
  unfold val_main_v137 val_main_v136 val_main_v135 val_main_v134 proj
  rw [deep_eq]
  show FloatOps.dotGeneral (F := Ideal) (DotDims.plain 100000 128 256) none .single _ _ i
      + broadcastInDim ⟨2, ![100000, 256]⟩ ![0, 1] _ (broadcastInDim ⟨2, ![1, 256]⟩ ![1] _ x10) i = _
  rw [dotGeneral_plain, Cert.Perceptron.bias_inDim]

/-- The reference's aggregate of basis `k`, -/
def refAgg (k : Fin 8) : Arr 100000 128 := match k with
  | ⟨0, _⟩ => val_main_v48 (F := Ideal) x0 x2 x11 x12
  | ⟨1, _⟩ => val_main_v58 (F := Ideal) x0 x2 x11 x12
  | ⟨2, _⟩ => val_main_v68 (F := Ideal) x0 x2 x11 x12
  | ⟨3, _⟩ => val_main_v78 (F := Ideal) x0 x2 x11 x12
  | ⟨4, _⟩ => val_main_v88 (F := Ideal) x0 x2 x11 x12
  | ⟨5, _⟩ => val_main_v98 (F := Ideal) x0 x2 x11 x12
  | ⟨6, _⟩ => val_main_v108 (F := Ideal) x0 x2 x11 x12
  | ⟨7, _⟩ => val_main_v118 (F := Ideal) x0 x2 x11 x12
/-- and its basis matrix `k`. -/
def refBasis (k : Fin 8) : Arr 128 128 := match k with
  | ⟨0, _⟩ => val_main_v50 (F := Ideal) x1
  | ⟨1, _⟩ => val_main_v60 (F := Ideal) x1
  | ⟨2, _⟩ => val_main_v70 (F := Ideal) x1
  | ⟨3, _⟩ => val_main_v80 (F := Ideal) x1
  | ⟨4, _⟩ => val_main_v90 (F := Ideal) x1
  | ⟨5, _⟩ => val_main_v100 (F := Ideal) x1
  | ⟨6, _⟩ => val_main_v110 (F := Ideal) x1
  | ⟨7, _⟩ => val_main_v120 (F := Ideal) x1

/-- Basis matrix `k` reads, at `(d, j)`, the entry `(k, d, j)` of the eight. -/
theorem refBasis_apply (k : Fin 8) (d j : Fin 128) : refBasis x1 k (ix2 d j) = x1 (ix3 k d j) := by
  match k with
  | ⟨0, _⟩ => unfold refBasis; dsimp only; unfold val_main_v50 val_main_v49; exact Cert.Stacked.basisAt x1 0 (by decide) _ _ d j
  | ⟨1, _⟩ => unfold refBasis; dsimp only; unfold val_main_v60 val_main_v59; exact Cert.Stacked.basisAt x1 1 (by decide) _ _ d j
  | ⟨2, _⟩ => unfold refBasis; dsimp only; unfold val_main_v70 val_main_v69; exact Cert.Stacked.basisAt x1 2 (by decide) _ _ d j
  | ⟨3, _⟩ => unfold refBasis; dsimp only; unfold val_main_v80 val_main_v79; exact Cert.Stacked.basisAt x1 3 (by decide) _ _ d j
  | ⟨4, _⟩ => unfold refBasis; dsimp only; unfold val_main_v90 val_main_v89; exact Cert.Stacked.basisAt x1 4 (by decide) _ _ d j
  | ⟨5, _⟩ => unfold refBasis; dsimp only; unfold val_main_v100 val_main_v99; exact Cert.Stacked.basisAt x1 5 (by decide) _ _ d j
  | ⟨6, _⟩ => unfold refBasis; dsimp only; unfold val_main_v110 val_main_v109; exact Cert.Stacked.basisAt x1 6 (by decide) _ _ d j
  | ⟨7, _⟩ => unfold refBasis; dsimp only; unfold val_main_v120 val_main_v119; exact Cert.Stacked.basisAt x1 7 (by decide) _ _ d j

/-- The product of aggregate 0 with its basis matrix. -/
theorem prod0_eq : val_main_v51 (F := Ideal) x0 x1 x2 x11 x12 = rowsByCols (refAgg x0 x2 x11 x12 0) (refBasis x1 0) := by
  unfold val_main_v51
  exact dotGeneral_plain none .single _ _
/-- The product of aggregate 1 with its basis matrix. -/
theorem prod1_eq : val_main_v61 (F := Ideal) x0 x1 x2 x11 x12 = rowsByCols (refAgg x0 x2 x11 x12 1) (refBasis x1 1) := by
  unfold val_main_v61
  exact dotGeneral_plain none .single _ _
/-- The product of aggregate 2 with its basis matrix. -/
theorem prod2_eq : val_main_v71 (F := Ideal) x0 x1 x2 x11 x12 = rowsByCols (refAgg x0 x2 x11 x12 2) (refBasis x1 2) := by
  unfold val_main_v71
  exact dotGeneral_plain none .single _ _
/-- The product of aggregate 3 with its basis matrix. -/
theorem prod3_eq : val_main_v81 (F := Ideal) x0 x1 x2 x11 x12 = rowsByCols (refAgg x0 x2 x11 x12 3) (refBasis x1 3) := by
  unfold val_main_v81
  exact dotGeneral_plain none .single _ _
/-- The product of aggregate 4 with its basis matrix. -/
theorem prod4_eq : val_main_v91 (F := Ideal) x0 x1 x2 x11 x12 = rowsByCols (refAgg x0 x2 x11 x12 4) (refBasis x1 4) := by
  unfold val_main_v91
  exact dotGeneral_plain none .single _ _
/-- The product of aggregate 5 with its basis matrix. -/
theorem prod5_eq : val_main_v101 (F := Ideal) x0 x1 x2 x11 x12 = rowsByCols (refAgg x0 x2 x11 x12 5) (refBasis x1 5) := by
  unfold val_main_v101
  exact dotGeneral_plain none .single _ _
/-- The product of aggregate 6 with its basis matrix. -/
theorem prod6_eq : val_main_v111 (F := Ideal) x0 x1 x2 x11 x12 = rowsByCols (refAgg x0 x2 x11 x12 6) (refBasis x1 6) := by
  unfold val_main_v111
  exact dotGeneral_plain none .single _ _
/-- The product of aggregate 7 with its basis matrix. -/
theorem prod7_eq : val_main_v121 (F := Ideal) x0 x1 x2 x11 x12 = rowsByCols (refAgg x0 x2 x11 x12 7) (refBasis x1 7) := by
  unfold val_main_v121
  exact dotGeneral_plain none .single _ _

/-- The reference's hidden state is `mixed` of the node rows and ANY array `cat` and matrix `bcat` that hold the eight
    aggregates side by side and the eight basis matrices stacked. -/
theorem mixed_eq (cat : Arr 100000 1024) (bcat : Arr 1024 128)
    (hcat : ∀ (n : Fin 100000) (k : Fin 8) (d : Fin 128) (c : Fin 1024), c.val = d.val + 128 * k.val →
      cat (ix2 n c) = refAgg x0 x2 x11 x12 k (ix2 n d))
    (hb : ∀ (k : Fin 8) (d j : Fin 128) (c : Fin 1024), c.val = d.val + 128 * k.val → bcat (ix2 c j) = refBasis x1 k (ix2 d j)) :
    val_main_v123 (F := Ideal) x0 x1 x2 x3 x4 x11 x12 = mixed x0 cat x3 x4 bcat := by
  funext i
  unfold val_main_v123 val_main_v122 val_main_v112 val_main_v102 val_main_v92 val_main_v82 val_main_v72 val_main_v62 val_main_v52 val_main_v42 val_main_v41 val_main_v40 val_main_v39 mixed
  rw [prod0_eq, prod1_eq, prod2_eq, prod3_eq, prod4_eq, prod5_eq, prod6_eq, prod7_eq]
  show (((((((((FloatOps.dotGeneral (F := Ideal) (DotDims.plain 100000 128 128) none .single x0 x3 i
      + broadcastInDim ⟨2, ![100000, 128]⟩ ![0, 1] _ (broadcastInDim ⟨2, ![1, 128]⟩ ![1] _ x4) i)
      + _) + _) + _) + _) + _) + _) + _) + _) + x0 i = _
  rw [dotGeneral_plain, Cert.Perceptron.bias_inDim,
    Cert.Stacked.contract_tiles (refAgg x0 x2 x11 x12) (refBasis x1) cat bcat hcat hb i]
  exact congrArg (· + x0 i) (Cert.TileLaw.add_eight _ fun k => rowsByCols (refAgg x0 x2 x11 x12 k) (refBasis x1 k) i)

end Cert.ReferenceIdeal.Side

end
-- ==== Proof.Updates.lean ====
/-
  An edge's update row, written two ways.

  With `coef` the edges' rows of eight coefficients, `w` the edges' weights and `rows` the edges' source rows, one
  program cuts coefficient column `k`, multiplies it by the weights, lays the product out as a column and repeats it
  along the features, and multiplies by the source rows; the other repeats the weights along the eight coefficients,
  multiplies, cuts column `k` of the product, repeats it along the features and multiplies by the source rows. At edge
  `e` and feature `d` both are `(coef (e, k) · w e) · rows (e, d)`: the same product in the same grouping, so the two
  arrays are equal whatever their entries.
-/
import Idealize.ShloMosaic.Lib.ValueIdx
import Idealize.ShloMosaic.Lib.Pipeline.Value

noncomputable section

namespace Cert.Updates

open Idealize.ShloMosaic Idealize.ShloMosaic.ValueIdx

/-- edges × coefficients, edges × 1, edges, edges × features -/
abbrev SE8 : Shape := ⟨2, ![1000000, 8]⟩
abbrev SE1 : Shape := ⟨2, ![1000000, 1]⟩
abbrev SE : Shape := ⟨1, ![1000000]⟩
abbrev SED : Shape := ⟨2, ![1000000, 128]⟩

variable (k : Nat) (hs : SE8.Slices ![0, k] SE1) (hc : SE1.ShapeCasts SE)
  (hb1 : SE.BroadcastsInDim SE1 (![0] : Fin 1 → Fin 2)) (hbD : SE1.BroadcastsInDim SED (![0, 1] : Fin 2 → Fin 2))
  (hb8 : SE1.BroadcastsInDim SE8 (![0, 1] : Fin 2 → Fin 2))
  (coef : FVec Ideal SE8 .f32) (w : FVec Ideal SE .f32) (rows : FVec Ideal SED .f32)

/-- A column repeated along the features reads, at `(e, d)`, the column at `(e, 0)`. -/
theorem alongFeatures (x : SE1.Idx → EReal) (e : Fin 1000000) (d : Fin 128) :
    broadcastInDim SED ![0, 1] hbD x (ix2 e d) = x (ix2 e (0 : Fin 1)) :=
  broadcastInDim_apply _ hbD x _ _ fun a => match a with
    | ⟨0, _⟩ => by show e.val = if (1000000 : Nat) = 1 then 0 else e.val; rw [if_neg (by decide)]
    | ⟨1, _⟩ => by show (0 : Nat) = if (1 : Nat) = 1 then 0 else d.val; rw [if_pos rfl]

/-- A column repeated along the eight coefficients reads, at `(e, j)`, the column at `(e, 0)`. -/
theorem alongCoefs (x : SE1.Idx → EReal) (e : Fin 1000000) (j : Fin 8) :
    broadcastInDim SE8 ![0, 1] hb8 x (ix2 e j) = x (ix2 e (0 : Fin 1)) :=
  broadcastInDim_apply _ hb8 x _ _ fun a => match a with
    | ⟨0, _⟩ => by show e.val = if (1000000 : Nat) = 1 then 0 else e.val; rw [if_neg (by decide)]
    | ⟨1, _⟩ => by show (0 : Nat) = if (1 : Nat) = 1 then 0 else j.val; rw [if_pos rfl]

/-- A vector laid out as a column reads, at `(e, 0)`, the vector at `e`. -/
theorem asColumn (x : SE.Idx → EReal) (e : Fin 1000000) :
    broadcastInDim SE1 ![0] hb1 x (ix2 e (0 : Fin 1)) = x (ix1 e) :=
  broadcastInDim_apply _ hb1 x _ _ fun a => match a with
    | ⟨0, _⟩ => by show e.val = if (1000000 : Nat) = 1 then 0 else e.val; rw [if_neg (by decide)]

/-- A column flattened to a vector reads, at `e`, the column at `(e, 0)`. -/
theorem flatColumn (x : SE1.Idx → EReal) (e : Fin 1000000) :
    shapeCast SE x hc (ix1 e) = x (ix2 e (0 : Fin 1)) :=
  shapeCast_apply x hc _ _ (by
    rw [Shape.rowMajor_val_two, Shape.rowMajor_val_one]
    show e.val * 1 + 0 = e.val
    omega)

/-- Column `k` cut from the eight reads, at `(e, 0)`, the array at `(e, k)`. -/
theorem cutColumn (hk8 : k < 8) (x : SE8.Idx → EReal) (e : Fin 1000000) :
    extractStridedSlice SE1 ![0, k] x hs (ix2 e (0 : Fin 1)) = x (ix2 e ⟨k, hk8⟩) :=
  extractStridedSlice_apply _ x hs _ _ fun a => match a with
    | ⟨0, _⟩ => by show e.val = 0 + e.val; omega
    | ⟨1, _⟩ => by show k = k + 0; omega

/-- Cut the column, scale by the weights, repeat, multiply: at `(e, d)` it is `(coef (e, k) · w e) · rows (e, d)`. -/
theorem scaledThenSpread (hk8 : k < 8) (e : Fin 1000000) (d : Fin 128) :
    mulf (broadcastInDim SED ![0, 1] hbD (broadcastInDim SE1 ![0] hb1
        (mulf (shapeCast SE (extractStridedSlice SE1 ![0, k] coef hs) hc) w))) rows (ix2 e d)
      = (coef (ix2 e ⟨k, hk8⟩) * w (ix1 e)) * rows (ix2 e d) := by
  rw [mulf_apply, alongFeatures, asColumn, mulf_apply, flatColumn, cutColumn k hs hk8]

/-- Scale all eight columns by the weights, cut the column, repeat, multiply: the same. -/
theorem spreadThenCut (hk8 : k < 8) (e : Fin 1000000) (d : Fin 128) :
    mulf (broadcastInDim SED ![0, 1] hbD (extractStridedSlice SE1 ![0, k]
        (mulf coef (broadcastInDim SE8 ![0, 1] hb8 (broadcastInDim SE1 ![0] hb1 w))) hs)) rows (ix2 e d)
      = (coef (ix2 e ⟨k, hk8⟩) * w (ix1 e)) * rows (ix2 e d) := by
  rw [mulf_apply, alongFeatures, cutColumn k hs hk8, mulf_apply, alongCoefs, asColumn]

/-- The two ways give one array. -/
theorem two_ways (hk8 : k < 8) :
    mulf (broadcastInDim SED ![0, 1] hbD (broadcastInDim SE1 ![0] hb1
        (mulf (shapeCast SE (extractStridedSlice SE1 ![0, k] coef hs) hc) w))) rows
      = mulf (broadcastInDim SED ![0, 1] hbD (extractStridedSlice SE1 ![0, k]
        (mulf coef (broadcastInDim SE8 ![0, 1] hb8 (broadcastInDim SE1 ![0] hb1 w))) hs)) rows := by
  funext i
  obtain ⟨e, d, rfl⟩ : ∃ (e : Fin 1000000) (d : Fin 128), i = ix2 e d := ⟨i 0, i 1, eq_ix2 i⟩
  rw [scaledThenSpread k hs hc hb1 hbD coef w rows hk8 e d, spreadThenCut k hs hb1 hbD hb8 coef w rows hk8 e d]

end Cert.Updates

end
-- ==== Proof.Bridge.lean ====
/-
  The two programs compute one array before the final gather.

  The kernel's launch output is the dense part of: the node rows, the eight aggregates joined, the root matrix, the bias,
  the eight basis matrices stacked, and the perceptron's and projection's weights and biases (each bias having been laid
  out as one row and read back as a vector). The reference's array before its gather is `proj (deep h)` with `h` the
  root transform plus bias plus the eight per-basis products in turn plus the node rows.

  * The edges' weights, source rows and coefficient rows are the same terms in both programs.
  * An edge's update row for basis `k` is `(coefficient k · weight) · source row` in both (`Cert.Updates.two_ways`), so
    the aggregates, the same scatter-add of the same updates, are equal.
  * So the kernel's joined array holds the reference's aggregates side by side, its stacked matrix holds the
    reference's basis matrices, and `h` is `mixed` of them (`Side.mixed_eq`).
-/
import proofs.«169647_j90151363543101_1_alg».proof.Proof.Whole
import proofs.«169647_j90151363543101_1_alg».proof.Proof.EntryDefs
import proofs.«169647_j90151363543101_1_alg».proof.Proof.RefSide
import proofs.«169647_j90151363543101_1_alg».proof.Proof.Updates
import Idealize.ShloMosaic.Lib.ValueLayout

set_option maxRecDepth 16384

noncomputable section

open Idealize.ShloMosaic Idealize.ShloMosaic.TcCoe Idealize.SL.Sem

namespace Cert.Bridge

open Idealize.ShloMosaic.ValueIdx Idealize.ShloMosaic.PlainProduct Cert.Dense
open Cert.KernelIdeal.Block (rowOf)

variable (x0 : FVec Ideal Cert.KernelIdeal.S100000x128 .f32) (x1 : FVec Ideal Cert.KernelIdeal.S8x128x128 .f32) (x2 : FVec Ideal Cert.KernelIdeal.S48x8 .f32)
  (x3 : FVec Ideal Cert.KernelIdeal.S128x128 .f32) (x4 : FVec Ideal Cert.KernelIdeal.S128 .f32) (x5 : FVec Ideal Cert.KernelIdeal.S128x64 .f32) (x6 : FVec Ideal Cert.KernelIdeal.S64 .f32)
  (x7 : FVec Ideal Cert.KernelIdeal.S64x128 .f32) (x8 : FVec Ideal Cert.KernelIdeal.S128 .f32) (x9 : FVec Ideal Cert.KernelIdeal.S128x256 .f32) (x10 : FVec Ideal Cert.KernelIdeal.S256 .f32)
  (x11 : (⟨Cert.KernelIdeal.S2x1000000, .i32⟩ : BufTy).Contents (Elt Ideal)) (x12 : (⟨Cert.KernelIdeal.S1000000, .i32⟩ : BufTy).Contents (Elt Ideal))

/-- The edges' coefficient rows, weights and source rows are the same terms in both programs. -/
theorem coef_same : Cert.KernelIdeal.Entry.coefRows x2 x12 = Cert.ReferenceIdeal.Read.val_main_v21 (F := Ideal) x2 x12 := rfl
theorem weight_same : Cert.KernelIdeal.Entry.edgeWeight x11 x12 = Cert.ReferenceIdeal.Read.val_main_v28 (F := Ideal) x11 x12 := rfl
theorem rows_same : Cert.KernelIdeal.Entry.srcRows x0 x11 = Cert.ReferenceIdeal.Read.val_main_v38 (F := Ideal) x0 x11 := rfl

/-- Aggregate 0 is the same array in both programs. -/
theorem agg0_same : Cert.KernelIdeal.Entry.agg0 x0 x2 x11 x12 = Cert.ReferenceIdeal.Read.val_main_v48 (F := Ideal) x0 x2 x11 x12 := by
  unfold Cert.KernelIdeal.Entry.agg0 Cert.KernelIdeal.Entry.aggOf Cert.KernelIdeal.Entry.updRows Cert.ReferenceIdeal.Read.val_main_v48 Cert.ReferenceIdeal.Read.val_main_v45 Cert.ReferenceIdeal.Read.val_main_v44 Cert.ReferenceIdeal.Read.val_main_v43 Cert.ReferenceIdeal.Read.val_main_v31 Cert.ReferenceIdeal.Read.val_main_v30 Cert.ReferenceIdeal.Read.val_main_v29
  rw [coef_same, weight_same, rows_same]
  exact congrArg (Host.scatterAdd (F := Ideal) Cert.KernelIdeal.scatter_S100000x128_S1000000x1_S1000000x128_1_0_0_1 _ _)
    (Cert.Updates.two_ways 0 _ _ _ _ _ (Cert.ReferenceIdeal.Read.val_main_v21 (F := Ideal) x2 x12) (Cert.ReferenceIdeal.Read.val_main_v28 (F := Ideal) x11 x12)
      (Cert.ReferenceIdeal.Read.val_main_v38 (F := Ideal) x0 x11) (by decide))
/-- Aggregate 1 is the same array in both programs. -/
theorem agg1_same : Cert.KernelIdeal.Entry.agg1 x0 x2 x11 x12 = Cert.ReferenceIdeal.Read.val_main_v58 (F := Ideal) x0 x2 x11 x12 := by
  unfold Cert.KernelIdeal.Entry.agg1 Cert.KernelIdeal.Entry.aggOf Cert.KernelIdeal.Entry.updRows Cert.ReferenceIdeal.Read.val_main_v58 Cert.ReferenceIdeal.Read.val_main_v55 Cert.ReferenceIdeal.Read.val_main_v54 Cert.ReferenceIdeal.Read.val_main_v53 Cert.ReferenceIdeal.Read.val_main_v31 Cert.ReferenceIdeal.Read.val_main_v30 Cert.ReferenceIdeal.Read.val_main_v29
  rw [coef_same, weight_same, rows_same]
  exact congrArg (Host.scatterAdd (F := Ideal) Cert.KernelIdeal.scatter_S100000x128_S1000000x1_S1000000x128_1_0_0_1 _ _)
    (Cert.Updates.two_ways 1 _ _ _ _ _ (Cert.ReferenceIdeal.Read.val_main_v21 (F := Ideal) x2 x12) (Cert.ReferenceIdeal.Read.val_main_v28 (F := Ideal) x11 x12)
      (Cert.ReferenceIdeal.Read.val_main_v38 (F := Ideal) x0 x11) (by decide))
/-- Aggregate 2 is the same array in both programs. -/
theorem agg2_same : Cert.KernelIdeal.Entry.agg2 x0 x2 x11 x12 = Cert.ReferenceIdeal.Read.val_main_v68 (F := Ideal) x0 x2 x11 x12 := by
  unfold Cert.KernelIdeal.Entry.agg2 Cert.KernelIdeal.Entry.aggOf Cert.KernelIdeal.Entry.updRows Cert.ReferenceIdeal.Read.val_main_v68 Cert.ReferenceIdeal.Read.val_main_v65 Cert.ReferenceIdeal.Read.val_main_v64 Cert.ReferenceIdeal.Read.val_main_v63 Cert.ReferenceIdeal.Read.val_main_v31 Cert.ReferenceIdeal.Read.val_main_v30 Cert.ReferenceIdeal.Read.val_main_v29
  rw [coef_same, weight_same, rows_same]
  exact congrArg (Host.scatterAdd (F := Ideal) Cert.KernelIdeal.scatter_S100000x128_S1000000x1_S1000000x128_1_0_0_1 _ _)
    (Cert.Updates.two_ways 2 _ _ _ _ _ (Cert.ReferenceIdeal.Read.val_main_v21 (F := Ideal) x2 x12) (Cert.ReferenceIdeal.Read.val_main_v28 (F := Ideal) x11 x12)
      (Cert.ReferenceIdeal.Read.val_main_v38 (F := Ideal) x0 x11) (by decide))
/-- Aggregate 3 is the same array in both programs. -/
theorem agg3_same : Cert.KernelIdeal.Entry.agg3 x0 x2 x11 x12 = Cert.ReferenceIdeal.Read.val_main_v78 (F := Ideal) x0 x2 x11 x12 := by
  unfold Cert.KernelIdeal.Entry.agg3 Cert.KernelIdeal.Entry.aggOf Cert.KernelIdeal.Entry.updRows Cert.ReferenceIdeal.Read.val_main_v78 Cert.ReferenceIdeal.Read.val_main_v75 Cert.ReferenceIdeal.Read.val_main_v74 Cert.ReferenceIdeal.Read.val_main_v73 Cert.ReferenceIdeal.Read.val_main_v31 Cert.ReferenceIdeal.Read.val_main_v30 Cert.ReferenceIdeal.Read.val_main_v29
  rw [coef_same, weight_same, rows_same]
  exact congrArg (Host.scatterAdd (F := Ideal) Cert.KernelIdeal.scatter_S100000x128_S1000000x1_S1000000x128_1_0_0_1 _ _)
    (Cert.Updates.two_ways 3 _ _ _ _ _ (Cert.ReferenceIdeal.Read.val_main_v21 (F := Ideal) x2 x12) (Cert.ReferenceIdeal.Read.val_main_v28 (F := Ideal) x11 x12)
      (Cert.ReferenceIdeal.Read.val_main_v38 (F := Ideal) x0 x11) (by decide))
/-- Aggregate 4 is the same array in both programs. -/
theorem agg4_same : Cert.KernelIdeal.Entry.agg4 x0 x2 x11 x12 = Cert.ReferenceIdeal.Read.val_main_v88 (F := Ideal) x0 x2 x11 x12 := by
  unfold Cert.KernelIdeal.Entry.agg4 Cert.KernelIdeal.Entry.aggOf Cert.KernelIdeal.Entry.updRows Cert.ReferenceIdeal.Read.val_main_v88 Cert.ReferenceIdeal.Read.val_main_v85 Cert.ReferenceIdeal.Read.val_main_v84 Cert.ReferenceIdeal.Read.val_main_v83 Cert.ReferenceIdeal.Read.val_main_v31 Cert.ReferenceIdeal.Read.val_main_v30 Cert.ReferenceIdeal.Read.val_main_v29
  rw [coef_same, weight_same, rows_same]
  exact congrArg (Host.scatterAdd (F := Ideal) Cert.KernelIdeal.scatter_S100000x128_S1000000x1_S1000000x128_1_0_0_1 _ _)
    (Cert.Updates.two_ways 4 _ _ _ _ _ (Cert.ReferenceIdeal.Read.val_main_v21 (F := Ideal) x2 x12) (Cert.ReferenceIdeal.Read.val_main_v28 (F := Ideal) x11 x12)
      (Cert.ReferenceIdeal.Read.val_main_v38 (F := Ideal) x0 x11) (by decide))
/-- Aggregate 5 is the same array in both programs. -/
theorem agg5_same : Cert.KernelIdeal.Entry.agg5 x0 x2 x11 x12 = Cert.ReferenceIdeal.Read.val_main_v98 (F := Ideal) x0 x2 x11 x12 := by
  unfold Cert.KernelIdeal.Entry.agg5 Cert.KernelIdeal.Entry.aggOf Cert.KernelIdeal.Entry.updRows Cert.ReferenceIdeal.Read.val_main_v98 Cert.ReferenceIdeal.Read.val_main_v95 Cert.ReferenceIdeal.Read.val_main_v94 Cert.ReferenceIdeal.Read.val_main_v93 Cert.ReferenceIdeal.Read.val_main_v31 Cert.ReferenceIdeal.Read.val_main_v30 Cert.ReferenceIdeal.Read.val_main_v29
  rw [coef_same, weight_same, rows_same]
  exact congrArg (Host.scatterAdd (F := Ideal) Cert.KernelIdeal.scatter_S100000x128_S1000000x1_S1000000x128_1_0_0_1 _ _)
    (Cert.Updates.two_ways 5 _ _ _ _ _ (Cert.ReferenceIdeal.Read.val_main_v21 (F := Ideal) x2 x12) (Cert.ReferenceIdeal.Read.val_main_v28 (F := Ideal) x11 x12)
      (Cert.ReferenceIdeal.Read.val_main_v38 (F := Ideal) x0 x11) (by decide))
/-- Aggregate 6 is the same array in both programs. -/
theorem agg6_same : Cert.KernelIdeal.Entry.agg6 x0 x2 x11 x12 = Cert.ReferenceIdeal.Read.val_main_v108 (F := Ideal) x0 x2 x11 x12 := by
  unfold Cert.KernelIdeal.Entry.agg6 Cert.KernelIdeal.Entry.aggOf Cert.KernelIdeal.Entry.updRows Cert.ReferenceIdeal.Read.val_main_v108 Cert.ReferenceIdeal.Read.val_main_v105 Cert.ReferenceIdeal.Read.val_main_v104 Cert.ReferenceIdeal.Read.val_main_v103 Cert.ReferenceIdeal.Read.val_main_v31 Cert.ReferenceIdeal.Read.val_main_v30 Cert.ReferenceIdeal.Read.val_main_v29
  rw [coef_same, weight_same, rows_same]
  exact congrArg (Host.scatterAdd (F := Ideal) Cert.KernelIdeal.scatter_S100000x128_S1000000x1_S1000000x128_1_0_0_1 _ _)
    (Cert.Updates.two_ways 6 _ _ _ _ _ (Cert.ReferenceIdeal.Read.val_main_v21 (F := Ideal) x2 x12) (Cert.ReferenceIdeal.Read.val_main_v28 (F := Ideal) x11 x12)
      (Cert.ReferenceIdeal.Read.val_main_v38 (F := Ideal) x0 x11) (by decide))
/-- Aggregate 7 is the same array in both programs. -/
theorem agg7_same : Cert.KernelIdeal.Entry.agg7 x0 x2 x11 x12 = Cert.ReferenceIdeal.Read.val_main_v118 (F := Ideal) x0 x2 x11 x12 := by
  unfold Cert.KernelIdeal.Entry.agg7 Cert.KernelIdeal.Entry.aggOf Cert.KernelIdeal.Entry.updRows Cert.ReferenceIdeal.Read.val_main_v118 Cert.ReferenceIdeal.Read.val_main_v115 Cert.ReferenceIdeal.Read.val_main_v114 Cert.ReferenceIdeal.Read.val_main_v113 Cert.ReferenceIdeal.Read.val_main_v31 Cert.ReferenceIdeal.Read.val_main_v30 Cert.ReferenceIdeal.Read.val_main_v29
  rw [coef_same, weight_same, rows_same]
  exact congrArg (Host.scatterAdd (F := Ideal) Cert.KernelIdeal.scatter_S100000x128_S1000000x1_S1000000x128_1_0_0_1 _ _)
    (Cert.Updates.two_ways 7 _ _ _ _ _ (Cert.ReferenceIdeal.Read.val_main_v21 (F := Ideal) x2 x12) (Cert.ReferenceIdeal.Read.val_main_v28 (F := Ideal) x11 x12)
      (Cert.ReferenceIdeal.Read.val_main_v38 (F := Ideal) x0 x11) (by decide))

/-- The kernel's aggregates as a family. -/
def aggs (k : Fin 8) : Arr 100000 128 := match k with
  | ⟨0, _⟩ => Cert.KernelIdeal.Entry.agg0 x0 x2 x11 x12
  | ⟨1, _⟩ => Cert.KernelIdeal.Entry.agg1 x0 x2 x11 x12
  | ⟨2, _⟩ => Cert.KernelIdeal.Entry.agg2 x0 x2 x11 x12
  | ⟨3, _⟩ => Cert.KernelIdeal.Entry.agg3 x0 x2 x11 x12
  | ⟨4, _⟩ => Cert.KernelIdeal.Entry.agg4 x0 x2 x11 x12
  | ⟨5, _⟩ => Cert.KernelIdeal.Entry.agg5 x0 x2 x11 x12
  | ⟨6, _⟩ => Cert.KernelIdeal.Entry.agg6 x0 x2 x11 x12
  | ⟨7, _⟩ => Cert.KernelIdeal.Entry.agg7 x0 x2 x11 x12

theorem aggs_same (k : Fin 8) : aggs x0 x2 x11 x12 k = Cert.ReferenceIdeal.Side.refAgg x0 x2 x11 x12 k := by
  match k with
  | ⟨0, _⟩ => exact agg0_same x0 x2 x11 x12
  | ⟨1, _⟩ => exact agg1_same x0 x2 x11 x12
  | ⟨2, _⟩ => exact agg2_same x0 x2 x11 x12
  | ⟨3, _⟩ => exact agg3_same x0 x2 x11 x12
  | ⟨4, _⟩ => exact agg4_same x0 x2 x11 x12
  | ⟨5, _⟩ => exact agg5_same x0 x2 x11 x12
  | ⟨6, _⟩ => exact agg6_same x0 x2 x11 x12
  | ⟨7, _⟩ => exact agg7_same x0 x2 x11 x12

/-- The joined array holds the reference's aggregates side by side. -/
theorem joined_holds (n : Fin 100000) (k : Fin 8) (d : Fin 128) (c : Fin 1024) (hcv : c.val = d.val + 128 * k.val) :
    Cert.KernelIdeal.Entry.aggCat x0 x2 x11 x12 (ix2 n c) = Cert.ReferenceIdeal.Side.refAgg x0 x2 x11 x12 k (ix2 n d) := by
  rw [← aggs_same]
  unfold Cert.KernelIdeal.Entry.aggCat
  exact Cert.Stacked.joinedAt (aggs x0 x2 x11 x12) _ n k d c hcv

/-- The stacked matrix holds the reference's basis matrices. -/
theorem stacked_holds (k : Fin 8) (d j : Fin 128) (c : Fin 1024) (hcv : c.val = d.val + 128 * k.val) :
    shapeCast Cert.KernelIdeal.S1024x128 x1 Cert.KernelIdeal.Gen.shapeCasts_S8x128x128_S1024x128 (ix2 c j) = Cert.ReferenceIdeal.Side.refBasis x1 k (ix2 d j) := by
  rw [Cert.ReferenceIdeal.Side.refBasis_apply]
  exact Cert.Stacked.stackedAt x1 _ k d j c hcv

/-- A bias laid out as one row and read back as a vector is the bias. -/
theorem row_back {n : Nat} (b : FVec Ideal ⟨1, ![n]⟩ .f32) (h : (⟨1, ![n]⟩ : Shape).ShapeCasts ⟨2, ![1, n]⟩) :
    rowOf (shapeCast ⟨2, ![1, n]⟩ b h) = b := by
  funext i
  obtain ⟨j, rfl⟩ : ∃ j : Fin n, i = ix1 j := ⟨i 0, eq_ix1 i⟩
  exact shapeCast_a_1a_apply b h 0 j

/-- THE BRIDGE: the dense part of the kernel's arrays is the reference's array before its gather. -/
theorem dense_same :
    dense x0 (Cert.KernelIdeal.Entry.aggCat x0 x2 x11 x12) x3 (rowOf (shapeCast Cert.KernelIdeal.S1x128 x4 Cert.KernelIdeal.Gen.shapeCasts_S128_S1x128))
        (shapeCast Cert.KernelIdeal.S1024x128 x1 Cert.KernelIdeal.Gen.shapeCasts_S8x128x128_S1024x128) x5 (rowOf (shapeCast Cert.KernelIdeal.S1x64 x6 Cert.KernelIdeal.Gen.shapeCasts_S64_S1x64)) x7
        (rowOf (shapeCast Cert.KernelIdeal.S1x128 x8 Cert.KernelIdeal.Gen.shapeCasts_S128_S1x128)) x9 (rowOf (shapeCast Cert.KernelIdeal.S1x256 x10 Cert.KernelIdeal.Gen.shapeCasts_S256_S1x256))
      = Cert.ReferenceIdeal.Read.val_main_v137 (F := Ideal) x0 x1 x2 x3 x4 x5 x6 x7 x8 x9 x10 x11 x12 := by
  rw [row_back, row_back, row_back, row_back, Cert.ReferenceIdeal.Side.top_eq,
    Cert.ReferenceIdeal.Side.mixed_eq x0 x1 x2 x3 x4 x11 x12 (Cert.KernelIdeal.Entry.aggCat x0 x2 x11 x12) (shapeCast Cert.KernelIdeal.S1024x128 x1 Cert.KernelIdeal.Gen.shapeCasts_S8x128x128_S1024x128)
      (joined_holds x0 x2 x11 x12) (stacked_holds x1)]
  rfl

end Cert.Bridge

end
-- ==== Proof.Entry.lean ====
/-
  The launch finds the eight aggregates side by side in its second input array.

  The leading host operations come printed in three consecutive parts, and are read back part by part, each part
  reading what the one before left. The first part cuts the two columns of the edge list, forms the segments and their
  weights, gathers each edge's weight, source row and coefficient row, and builds the first aggregate and the second's
  scaled coefficient column. The second part builds the next six aggregates and the last one's scaled column. The
  third builds the last aggregate and joins the eight. Put together, the joined array is `aggCat` of the arguments.
-/
import proofs.«169647_j90151363543101_1_alg».proof.Proof.EntryDefs

set_option maxRecDepth 16384
set_option Elab.async false

noncomputable section

open Idealize.ShloMosaic Idealize.ShloMosaic.TcCoe Idealize.SL.Sem

namespace Cert.KernelIdeal.Entry

open Cert.KernelIdeal Cert.KernelIdeal.Gen Cert.KernelIdeal.Around

/-- Operations read back in two parts: the second part reads what the first leaves. -/
theorem after_split (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih (op.result W)

variable (m : (ℓ : Loc nD τ sig) → Buf (Elt Ideal) ℓ)

/-- The buffers' contents on core `c` after the first part, -/
def atOne (c : Dev nD) : Valuation τ sig (Elt Ideal) := StableHlo.after main_part0_ops0 (fun b => m (c, b))
/-- and after the second. -/
def atTwo (c : Dev nD) : Valuation τ sig (Elt Ideal) := StableHlo.after main_part1_ops0 (atOne m c)

/-- What the launch finds is what the third part leaves from there. -/
theorem V_parts (c : Dev nD) (b : Ref sig .tc) : V m c b = StableHlo.after main_part2_ops0 (atTwo m c) (Proc.devRef .tc b) := by
  have h : (hostOps0 : List (HloOp τ sig (Elt Ideal))) = main_part0_ops0 ++ (main_part1_ops0 ++ main_part2_ops0) := rfl
  show StableHlo.after hostOps0 (fun b => m (c, b)) (Proc.devRef .tc b) = _
  exact (congrFun (congrArg (fun l => StableHlo.after l (fun b => m (c, b))) h) _).trans
    ((congrFun (after_split _ _ _) _).trans (congrFun (after_split _ _ _) _))

/-! ## The first part, from the launch memory -/

set_option maxHeartbeats 40000000 in
set_option maxRecDepth 1000000 in
theorem one_dst (c : Dev nD) : atOne m c (Proc.devRef .tc main_v3) = dst (m ((c.tc : Thread nD τ).loc main_arg11)) := by
  show StableHlo.after main_part0_ops0 (fun b => m (c, b)) (Proc.devRef .tc main_v3) = _
  after_results_simp <;> rfl
set_option maxHeartbeats 40000000 in
set_option maxRecDepth 1000000 in
theorem one_weight (c : Dev nD) : atOne m c (Proc.devRef .tc main_v21) = edgeWeight (m ((c.tc : Thread nD τ).loc main_arg11)) (m ((c.tc : Thread nD τ).loc main_arg12)) := by
  show StableHlo.after main_part0_ops0 (fun b => m (c, b)) (Proc.devRef .tc main_v21) = _
  after_results_simp <;> rfl
set_option maxHeartbeats 40000000 in
set_option maxRecDepth 1000000 in
theorem one_rows (c : Dev nD) : atOne m c (Proc.devRef .tc main_v28) = srcRows (m ((c.tc : Thread nD τ).loc main_arg0)) (m ((c.tc : Thread nD τ).loc main_arg11)) := by
  show StableHlo.after main_part0_ops0 (fun b => m (c, b)) (Proc.devRef .tc main_v28) = _
  after_results_simp <;> rfl
set_option maxHeartbeats 40000000 in
set_option maxRecDepth 1000000 in
theorem one_coef (c : Dev nD) : atOne m c (Proc.devRef .tc main_v35) = coefRows (m ((c.tc : Thread nD τ).loc main_arg2)) (m ((c.tc : Thread nD τ).loc main_arg12)) := by
  show StableHlo.after main_part0_ops0 (fun b => m (c, b)) (Proc.devRef .tc main_v35) = _
  after_results_simp <;> rfl
set_option maxHeartbeats 40000000 in
set_option maxRecDepth 1000000 in
theorem one_agg0 (c : Dev nD) : atOne m c (Proc.devRef .tc main_v44) = agg0 (m ((c.tc : Thread nD τ).loc main_arg0)) (m ((c.tc : Thread nD τ).loc main_arg2)) (m ((c.tc : Thread nD τ).loc main_arg11)) (m ((c.tc : Thread nD τ).loc main_arg12)) := by
  show StableHlo.after main_part0_ops0 (fun b => m (c, b)) (Proc.devRef .tc main_v44) = _
  after_results_simp <;> rfl
set_option maxHeartbeats 40000000 in
set_option maxRecDepth 1000000 in
theorem one_col1 (c : Dev nD) : atOne m c (Proc.devRef .tc main_v47)
    = (mulf (F := Ideal) (φ := .f32) (shapeCast _ (extractStridedSlice S1000000x1 ![0, 1] (coefRows (m ((c.tc : Thread nD τ).loc main_arg2)) (m ((c.tc : Thread nD τ).loc main_arg12))) slices_S1000000x8_S1000000x1_0_1) shapeCasts_S1000000x1_S1000000) (edgeWeight (m ((c.tc : Thread nD τ).loc main_arg11)) (m ((c.tc : Thread nD τ).loc main_arg12)))) := by
  show StableHlo.after main_part0_ops0 (fun b => m (c, b)) (Proc.devRef .tc main_v47) = _
  after_results_simp <;> rfl

/-! ## The second part, from any contents `X` -/

variable (X : Valuation τ sig (Elt Ideal))

set_option maxHeartbeats 40000000 in
set_option maxRecDepth 1000000 in
theorem two_agg1 : StableHlo.after main_part1_ops0 X (Proc.devRef .tc main_v53)
    = aggOf (X (Proc.devRef .tc main_v3)) (mulf (broadcastInDim S1000000x128 ![0, 1] bcast_S1000000x1_S1000000x128_0_1 (broadcastInDim S1000000x1 ![0] bcast_S1000000_S1000000x1_0 (X (Proc.devRef .tc main_v47)))) (X (Proc.devRef .tc main_v28))) := by
  after_results_simp <;> rfl
set_option maxHeartbeats 40000000 in
set_option maxRecDepth 1000000 in
theorem two_agg2 : StableHlo.after main_part1_ops0 X (Proc.devRef .tc main_v62)
    = aggOf (X (Proc.devRef .tc main_v3)) (updRows 2 slices_S1000000x8_S1000000x1_0_2 (X (Proc.devRef .tc main_v35)) (X (Proc.devRef .tc main_v21)) (X (Proc.devRef .tc main_v28))) := by
  after_results_simp <;> rfl
set_option maxHeartbeats 40000000 in
set_option maxRecDepth 1000000 in
theorem two_agg3 : StableHlo.after main_part1_ops0 X (Proc.devRef .tc main_v71)
    = aggOf (X (Proc.devRef .tc main_v3)) (updRows 3 slices_S1000000x8_S1000000x1_0_3 (X (Proc.devRef .tc main_v35)) (X (Proc.devRef .tc main_v21)) (X (Proc.devRef .tc main_v28))) := by
  after_results_simp <;> rfl
set_option maxHeartbeats 40000000 in
set_option maxRecDepth 1000000 in
theorem two_agg4 : StableHlo.after main_part1_ops0 X (Proc.devRef .tc main_v80)
    = aggOf (X (Proc.devRef .tc main_v3)) (updRows 4 slices_S1000000x8_S1000000x1_0_4 (X (Proc.devRef .tc main_v35)) (X (Proc.devRef .tc main_v21)) (X (Proc.devRef .tc main_v28))) := by
  after_results_simp <;> rfl
set_option maxHeartbeats 40000000 in
set_option maxRecDepth 1000000 in
theorem two_agg5 : StableHlo.after main_part1_ops0 X (Proc.devRef .tc main_v89)
    = aggOf (X (Proc.devRef .tc main_v3)) (updRows 5 slices_S1000000x8_S1000000x1_0_5 (X (Proc.devRef .tc main_v35)) (X (Proc.devRef .tc main_v21)) (X (Proc.devRef .tc main_v28))) := by
  after_results_simp <;> rfl
set_option maxHeartbeats 40000000 in
set_option maxRecDepth 1000000 in
theorem two_agg6 : StableHlo.after main_part1_ops0 X (Proc.devRef .tc main_v98)
    = aggOf (X (Proc.devRef .tc main_v3)) (updRows 6 slices_S1000000x8_S1000000x1_0_6 (X (Proc.devRef .tc main_v35)) (X (Proc.devRef .tc main_v21)) (X (Proc.devRef .tc main_v28))) := by
  after_results_simp <;> rfl
set_option maxHeartbeats 40000000 in
set_option maxRecDepth 1000000 in
theorem two_col7 : StableHlo.after main_part1_ops0 X (Proc.devRef .tc main_v101) = (mulf (F := Ideal) (φ := .f32) (shapeCast _ (extractStridedSlice S1000000x1 ![0, 7] (X (Proc.devRef .tc main_v35)) slices_S1000000x8_S1000000x1_0_7) shapeCasts_S1000000x1_S1000000) (X (Proc.devRef .tc main_v21))) := by
  after_results_simp <;> rfl
set_option maxHeartbeats 40000000 in
set_option maxRecDepth 1000000 in
theorem two_keep44 : StableHlo.after main_part1_ops0 X (Proc.devRef .tc main_v44) = X (Proc.devRef .tc main_v44) := by
  after_results_simp <;> rfl
set_option maxHeartbeats 40000000 in
set_option maxRecDepth 1000000 in
theorem two_keep3 : StableHlo.after main_part1_ops0 X (Proc.devRef .tc main_v3) = X (Proc.devRef .tc main_v3) := by
  after_results_simp <;> rfl
set_option maxHeartbeats 40000000 in
set_option maxRecDepth 1000000 in
theorem two_keep28 : StableHlo.after main_part1_ops0 X (Proc.devRef .tc main_v28) = X (Proc.devRef .tc main_v28) := by
  after_results_simp <;> rfl

/-! ## The third part, from any contents `X` -/

set_option maxHeartbeats 40000000 in
set_option maxRecDepth 1000000 in
theorem three_cat : StableHlo.after main_part2_ops0 X (Proc.devRef .tc main_v108)
    = concatenate S100000x1024 1 [⟨S100000x128, X (Proc.devRef .tc main_v44)⟩, ⟨S100000x128, X (Proc.devRef .tc main_v53)⟩, ⟨S100000x128, X (Proc.devRef .tc main_v62)⟩, ⟨S100000x128, X (Proc.devRef .tc main_v71)⟩, ⟨S100000x128, X (Proc.devRef .tc main_v80)⟩, ⟨S100000x128, X (Proc.devRef .tc main_v89)⟩, ⟨S100000x128, X (Proc.devRef .tc main_v98)⟩,
        ⟨S100000x128, aggOf (X (Proc.devRef .tc main_v3)) (mulf (broadcastInDim S1000000x128 ![0, 1] bcast_S1000000x1_S1000000x128_0_1 (broadcastInDim S1000000x1 ![0] bcast_S1000000_S1000000x1_0 (X (Proc.devRef .tc main_v101)))) (X (Proc.devRef .tc main_v28)))⟩]
      concatenates_S100000x128_S100000x128_S100000x128_S100000x128_S100000x128_S100000x128_S100000x128_S100000x128_S100000x1024_d1 := by
  after_results_simp <;> rfl

/-! ## Together -/

/-- The launch finds the eight aggregates side by side in its second input array. -/
theorem V_aggCat (c : Dev nD) : V m c main_v108
    = aggCat (m ((c.tc : Thread nD τ).loc main_arg0)) (m ((c.tc : Thread nD τ).loc main_arg2)) (m ((c.tc : Thread nD τ).loc main_arg11)) (m ((c.tc : Thread nD τ).loc main_arg12)) := by
  rw [V_parts, three_cat]
  unfold atTwo
  rw [two_keep44, two_agg1, two_agg2, two_agg3, two_agg4, two_agg5, two_agg6, two_keep3, two_col7, two_keep28,
    one_dst, one_weight, one_rows, one_coef, one_agg0, one_col1]
  rfl

end Cert.KernelIdeal.Entry

end
-- ==== Proof.EntryRows.lean ====
/-
  The stacked basis matrices and the bias rows, as the launch finds them: each is one reshape of an argument.
-/
import proofs.«169647_j90151363543101_1_alg».proof.Proof.KernelIdealAround
import Idealize.ShloMosaic.Lib.StableHlo.Run
import Idealize.ShloMosaic.PureOps.Ideal

set_option maxRecDepth 16384
set_option Elab.async false

noncomputable section

open Idealize.ShloMosaic Idealize.ShloMosaic.TcCoe Idealize.SL.Sem

namespace Cert.KernelIdeal.Entry

open Cert.KernelIdeal Cert.KernelIdeal.Gen Cert.KernelIdeal.Around

variable (m : (ℓ : Loc nD τ sig) → Buf (Elt Ideal) ℓ)

set_option maxHeartbeats 40000000 in
set_option maxRecDepth 1000000 in
/-- It finds the eight basis matrices stacked, -/
theorem V_bases (c : Dev nD) : V m c main_v109
    = shapeCast _ (m ((c.tc : Thread nD τ).loc main_arg1)) shapeCasts_S8x128x128_S1024x128 := by
  show StableHlo.after hostOps0 (fun b => m (c, b)) (Proc.devRef .tc main_v109) = _
  after_results_simp <;> rfl

set_option maxHeartbeats 40000000 in
set_option maxRecDepth 1000000 in
/-- and each bias as one row. -/
theorem V_bias (c : Dev nD) : V m c main_v110 = shapeCast _ (m ((c.tc : Thread nD τ).loc main_arg4)) shapeCasts_S128_S1x128 := by
  show StableHlo.after hostOps0 (fun b => m (c, b)) (Proc.devRef .tc main_v110) = _
  after_results_simp <;> rfl
set_option maxHeartbeats 40000000 in
set_option maxRecDepth 1000000 in
theorem V_b1 (c : Dev nD) : V m c main_v111 = shapeCast _ (m ((c.tc : Thread nD τ).loc main_arg6)) shapeCasts_S64_S1x64 := by
  show StableHlo.after hostOps0 (fun b => m (c, b)) (Proc.devRef .tc main_v111) = _
  after_results_simp <;> rfl
set_option maxHeartbeats 40000000 in
set_option maxRecDepth 1000000 in
theorem V_b2 (c : Dev nD) : V m c main_v112 = shapeCast _ (m ((c.tc : Thread nD τ).loc main_arg8)) shapeCasts_S128_S1x128 := by
  show StableHlo.after hostOps0 (fun b => m (c, b)) (Proc.devRef .tc main_v112) = _
  after_results_simp <;> rfl
set_option maxHeartbeats 40000000 in
set_option maxRecDepth 1000000 in
theorem V_bp (c : Dev nD) : V m c main_v113 = shapeCast _ (m ((c.tc : Thread nD τ).loc main_arg10)) shapeCasts_S256_S1x256 := by
  show StableHlo.after hostOps0 (fun b => m (c, b)) (Proc.devRef .tc main_v113) = _
  after_results_simp <;> rfl

end Cert.KernelIdeal.Entry

end
-- ==== Proof.lean ====
/-
  The certificate: a relational graph layer with basis decomposition, a two-layer perceptron and a projection, computed
  by a kernel over blocks of 2000 node rows, against its plain reference.

  * The three frames. Each kernel program is host operations, one launch, host operations; the launch's body reads
    its input buffers and stores its output buffer once, so the library's run of such a program applies and every
    argument array ends as launched (`Around.frame`, once for the word-level program and once for the idealized one).
    The reference has no launch: its frame is its run with the result forgotten.
  * The idealization rewrote nothing, so there is nothing to preserve.
  * The values. At the exact values the kernel's result is the rows, at the entity ids, of the dense part of its arrays
    (`Result.run`), and the reference's is the same rows of its array before the gather (the generated run); the two
    arrays are equal (`Bridge.dense_same`): the aggregates are the same scatter-adds of the same updates, and one
    contraction over the eight aggregates joined against the eight basis matrices stacked is the eight contractions
    added in turn. Only commutativity and associativity of addition on the extended reals are used, so the
    precondition that the inputs are finite is never opened.
-/
import proofs.«169647_j90151363543101_1_alg».proof.Defs
import proofs.«169647_j90151363543101_1_alg».proof.Proof.Gen.Kernel
import proofs.«169647_j90151363543101_1_alg».proof.Proof.Gen.KernelIdeal
import proofs.«169647_j90151363543101_1_alg».proof.Proof.Gen.ReferenceIdeal
import proofs.«169647_j90151363543101_1_alg».proof.Proof.Gen.Pre_finite_inputs
import proofs.«169647_j90151363543101_1_alg».proof.Proof.Gen.ReferenceIdeal.Run
import proofs.«169647_j90151363543101_1_alg».proof.Proof.Gen.ReferenceIdeal.Read
import proofs.«169647_j90151363543101_1_alg».proof.Proof.KernelAround
import proofs.«169647_j90151363543101_1_alg».proof.Proof.KernelIdealAround
import proofs.«169647_j90151363543101_1_alg».proof.Proof.Result
import proofs.«169647_j90151363543101_1_alg».proof.Proof.Bridge
import proofs.«169647_j90151363543101_1_alg».proof.Proof.Entry
import proofs.«169647_j90151363543101_1_alg».proof.Proof.EntryRows
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Around.frame (F := Bits) m ρ
theorem frame_ki : Cert.frame_KernelIdeal := fun m ρ _ => Cert.KernelIdeal.Around.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result, with its memory the kernel's on the arguments, is the kernel's result: the same gather, at
    the same ids, of equal arrays. -/
theorem result_same (m : (ℓ : Loc Cert.KernelIdeal.nD Cert.KernelIdeal.τ Cert.KernelIdeal.sig) → Buf (Elt Ideal) ℓ)
    (c : Dev Cert.KernelIdeal.nD) :
    Cert.ReferenceIdeal.Read.val_main_v144 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      = Cert.KernelIdeal.Result.pick (Cert.KernelIdeal.Whole.result m c) (m ((c.tc : Thread Cert.KernelIdeal.nD Cert.KernelIdeal.τ).loc Cert.KernelIdeal.main_arg13)) := by
  have hW : Cert.KernelIdeal.Whole.result m c
      = Cert.ReferenceIdeal.Read.val_main_v137 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
    unfold Cert.KernelIdeal.Whole.result
    rw [Cert.KernelIdeal.Around.V_arg0, Cert.KernelIdeal.Around.V_arg3, Cert.KernelIdeal.Around.V_arg5,
      Cert.KernelIdeal.Around.V_arg7, Cert.KernelIdeal.Around.V_arg9, Cert.KernelIdeal.Entry.V_aggCat,
      Cert.KernelIdeal.Entry.V_bases, Cert.KernelIdeal.Entry.V_bias, Cert.KernelIdeal.Entry.V_b1,
      Cert.KernelIdeal.Entry.V_b2, Cert.KernelIdeal.Entry.V_bp]
    exact Cert.Bridge.dense_same (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
  rw [hW]
  rfl

theorem algebraic : Cert.algebraic_KernelIdeal_ReferenceIdeal := by
  intro m ρ m' ρ' _ hagree
  refine ⟨fun c => Cert.KernelIdeal.Result.pick (Cert.KernelIdeal.Whole.result m c) (m ((c.tc : Thread Cert.KernelIdeal.nD Cert.KernelIdeal.τ).loc Cert.KernelIdeal.main_arg13)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v144_eq, a0, a1, a2, a3, a4, a5, a6, a7, a8, a9, a10, a11, a12, a13]
  exact result_same m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
